-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S1600000x32 : Shape := ⟨2, ![1600000, 32]⟩
abbrev S2x1600000 : Shape := ⟨2, ![2, 1600000]⟩
abbrev S32x32 : Shape := ⟨2, ![32, 32]⟩
abbrev S32 : Shape := ⟨1, ![32]⟩
abbrev S32x8 : Shape := ⟨2, ![32, 8]⟩
abbrev S8 : Shape := ⟨1, ![8]⟩
abbrev S1x8x4 : Shape := ⟨3, ![1, 8, 4]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S1x8x4 : S_.BroadcastsInDim S1x8x4 (![] : Fin 0 → Fin S1x8x4.rank)
  reducesTo_S1x8x4_S_d0_1_2 : S1x8x4.ReducesTo [0, 1, 2] S_

variable [Facts]

def fn_part4 {F : FTy → Type} [FloatOps F] (main_arg15 : FVec F S32x8 .f32) (main_arg16 : FVec F S8 .f32) (main_arg17 : FVec F S1x8x4 .f32) (main_v63 : IVec S_ 1) (main_v67 : IVec S_ 1) : IVec S_ 1 :=
  let main_v68 : IVec S_ 1 := andi main_v63 main_v67
  let main_v69 : FVec F S32x8 .f32 := Host.absf main_arg15
  let main_cst_26 : FVec F S_ .f32 := constant S_ .f32 0x7F800000#32
  let main_v70 : FVec F S32x8 .f32 := broadcastInDim S32x8 ![] bcast_S_S32x8 main_cst_26
  let main_v71 : IVec S32x8 1 := cmpf .olt main_v69 main_v70
  let main_c_27 : IVec S_ 1 := constantI S_ 1 1#1
  let main_v72 : IVec S_ 1 := (fun x v => Host.reduce IntOp.andi x v reducesTo_S32x8_S_d0_1 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S1x8x4 .f32 := Host.absf main_arg17
  let main_cst_30 : FVec F S_ .f32 := constant S_ .f32 0x7F800000#32
  let main_v80 : FVec F S1x8x4 .f32 := broadcastInDim S1x8x4 ![] bcast_S_S1x8x4 main_cst_30
  let main_v81 : IVec S1x8x4 1 := cmpf .olt main_v79 main_v80
  let main_c_31 : IVec S_ 1 := constantI S_ 1 1#1
  let main_v82 : IVec S_ 1 := (fun x v => Host.reduce IntOp.andi x v reducesTo_S1x8x4_S_d0_1_2 h_S_) main_v81 main_c_31
  let main_v83 : IVec S_ 1 := andi main_v78 main_v82
  main_v83

def fn_part3 {F : FTy → Type} [FloatOps F] (main_arg12 : FVec F S32 .f32) (main_arg13 : FVec F S32 .f32) (main_arg14 : FVec F S32 .f32) (main_arg15 : FVec F S32x8 .f32) (main_arg16 : FVec F S8 .f32) (main_arg17 : FVec F S1x8x4 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_v63 main_v67

def fn_part2 {F : FTy → Type} [FloatOps F] (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x8 .f32) (main_arg16 : FVec F S8 .f32) (main_arg17 : FVec F S1x8x4 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_arg14 main_arg15 main_arg16 main_arg17 main_v48 main_v49 main_v50

def fn_part1 {F : FTy → Type} [FloatOps F] (main_arg5 : FVec F S32 .f32) (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x8 .f32) (main_arg16 : FVec F S8 .f32) (main_arg17 : FVec F S1x8x4 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x32 .f32) (main_arg1 : FVec F S1600000x32 .f32) (main_arg2 : IVec S2x1600000 32) (main_arg3 : FVec F S32x32 .f32) (main_arg4 : FVec F S32 .f32) (main_arg5 : FVec F S32 .f32) (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x8 .f32) (main_arg16 : FVec F S8 .f32) (main_arg17 : FVec F S1x8x4 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x32 : Shape := ⟨2, ![50000, 32]⟩
abbrev S1600000x32 : Shape := ⟨2, ![1600000, 32]⟩
abbrev S2x1600000 : Shape := ⟨2, ![2, 1600000]⟩
abbrev S32x32 : Shape := ⟨2, ![32, 32]⟩
abbrev S32 : Shape := ⟨1, ![32]⟩
abbrev S32x8 : Shape := ⟨2, ![32, 8]⟩
abbrev S8 : Shape := ⟨1, ![8]⟩
abbrev S1x8x4 : Shape := ⟨3, ![1, 8, 4]⟩
abbrev S1x32 : Shape := ⟨2, ![1, 32]⟩
abbrev S5000x32 : Shape := ⟨2, ![5000, 32]⟩
abbrev S50000x8x4 : Shape := ⟨3, ![50000, 8, 4]⟩
abbrev S1x8 : Shape := ⟨2, ![1, 8]⟩
abbrev S1600000x8 : Shape := ⟨2, ![1600000, 8]⟩
abbrev S20000x32 : Shape := ⟨2, ![20000, 32]⟩
abbrev S20000x8 : Shape := ⟨2, ![20000, 8]⟩
abbrev S1600000x8x1 : Shape := ⟨3, ![1600000, 8, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8x4 : Shape := ⟨3, ![1600000, 8, 4]⟩
abbrev S50000 : Shape := ⟨1, ![50000]⟩
abbrev S50000x1x1 : Shape := ⟨3, ![50000, 1, 1]⟩

abbrev nBuf : Space → Nat
  | .hbm => 65
  | .vmem => 22
  | .smem => 0
  | _ => 0

abbrev bufTy : (tb : Table) → Fin (tcTables nBuf tb) → BufTy
  | .hbm, ⟨0, _⟩ => ⟨S50000x32, .f32⟩
  | .hbm, ⟨1, _⟩ => ⟨S1600000x32, .f32⟩
  | .hbm, ⟨2, _⟩ => ⟨S2x1600000, .i32⟩
  | .hbm, ⟨3, _⟩ => ⟨S32x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32x8, .f32⟩
  | .hbm, ⟨16, _⟩ => ⟨S8, .f32⟩
  | .hbm, ⟨17, _⟩ => ⟨S1x8x4, .f32⟩
  | .hbm, ⟨18, _⟩ => ⟨S1x32, .f32⟩
  | .hbm, ⟨19, _⟩ => ⟨S50000x32, .f32⟩
  | .hbm, ⟨20, _⟩ => ⟨S50000x8x4, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x8, .f32⟩
  | .hbm, ⟨30, _⟩ => ⟨S1600000x8, .f32⟩
  | .hbm, ⟨31, _⟩ => ⟨S1600000x8x1, .f32⟩
  | .hbm, ⟨32, _⟩ => ⟨S1x1600000, .i32⟩
  | .hbm, ⟨33, _⟩ => ⟨S1600000, .i32⟩
  | .hbm, ⟨34, _⟩ => ⟨S1x1600000, .i32⟩
  | .hbm, ⟨35, _⟩ => ⟨S1600000, .i32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x8x4, .f32⟩
  | .hbm, ⟨45, _⟩ => ⟨S1600000x8x4, .f32⟩
  | .hbm, ⟨46, _⟩ => ⟨S1600000x8x4, .f32⟩
  | .hbm, ⟨47, _⟩ => ⟨S_, .f32⟩
  | .hbm, ⟨48, _⟩ => ⟨S50000x8x4, .f32⟩
  | .hbm, ⟨49, _⟩ => ⟨S1600000x1, .i32⟩
  | .hbm, ⟨50, _⟩ => ⟨S50000x8x4, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S50000, .f32⟩
  | .hbm, ⟨55, _⟩ => ⟨S1600000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1x1, .f32⟩
  | .hbm, ⟨61, _⟩ => ⟨S50000x8x4, .f32⟩
  | .hbm, ⟨62, _⟩ => ⟨S50000x8x4, .f32⟩
  | .hbm, ⟨63, _⟩ => ⟨S50000x8x4, .f32⟩
  | .hbm, ⟨64, _⟩ => ⟨S50000x8x4, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S20000x32, .f32⟩
  | .local _ .vmem, ⟨7, _⟩ => ⟨S20000x32, .f32⟩
  | .local _ .vmem, ⟨8, _⟩ => ⟨S1x32, .f32⟩
  | .local _ .vmem, ⟨9, _⟩ => ⟨S1x32, .f32⟩
  | .local _ .vmem, ⟨10, _⟩ => ⟨S32x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S32x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S32x8, .f32⟩
  | .local _ .vmem, ⟨19, _⟩ => ⟨S1x8, .f32⟩
  | .local _ .vmem, ⟨20, _⟩ => ⟨S20000x8, .f32⟩
  | .local _ .vmem, ⟨21, _⟩ => ⟨S20000x8, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S20000x8 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S50000x32_S50000x8x4 : S50000x32.ShapeCasts S50000x8x4
  shapeCasts_S8_S1x8 : S8.ShapeCasts S1x8
  inb_S20000x32_S20000x32_0_0 : ∀ a, (![0, 0] : Fin 2 → Nat) a + S20000x32.size a ≤ S20000x32.size a
  h_S20000x32 : 0 < S20000x32.numel
  broadcasts_S1x32_S20000x32 : S1x32.Broadcasts S20000x32
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S20000x8 : S1x8.Broadcasts S20000x8
  inb_S20000x8_S20000x8_0_0 : ∀ a, (![0, 0] : Fin 2 → Nat) a + S20000x8.size a ≤ S20000x8.size a
  h_S20000x8 : 0 < S20000x8.numel
  bcast_S1600000x8_S1600000x8x1_0_1 : S1600000x8.BroadcastsInDim S1600000x8x1 (![0, 1] : Fin 2 → Fin S1600000x8x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x8x1_S1600000x8x4_0_1_2 : S1600000x8x1.BroadcastsInDim S1600000x8x4 (![0, 1, 2] : Fin 3 → Fin S1600000x8x4.rank)
  bcast_S_S50000x8x4 : S_.BroadcastsInDim S50000x8x4 (![] : Fin 0 → Fin S50000x8x4.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x8x4_0_1_2 : S50000x1x1.BroadcastsInDim S50000x8x4 (![0, 1, 2] : Fin 3 → Fin S50000x8x4.rank)
  bcast_S1x8x4_S50000x8x4_0_1_2 : S1x8x4.BroadcastsInDim S50000x8x4 (![0, 1, 2] : Fin 3 → Fin S50000x8x4.rank)
  dot_S5000x32_S32x32_S5000x32_1_0_0_1_n_n_wf : DotDims.WF S5000x32 S32x32 S5000x32 [1] [0] [0] [1] [] []
  dot_S20000x32_S32x32_S20000x32_1_0_0_1_n_n_wf : DotDims.WF S20000x32 S32x32 S20000x32 [1] [0] [0] [1] [] []
  dot_S20000x32_S32x8_S20000x8_1_0_0_1_n_n_wf : DotDims.WF S20000x32 S32x8 S20000x8 [1] [0] [0] [1] [] []
  gather_S50000x8x4_S1600000x1_S1600000x8x4_12_0_n_n_0_1_184_wf : GatherDims.WF S50000x8x4 S1600000x1 S1600000x8x4 [1, 2] [0] [] [0] [] 1 ![1, 8, 4]
  scatter_S50000x8x4_S1600000x1_S1600000x8x4_12_0_0_1_wf : ScatterDims.WF S50000x8x4 S1600000x1 S1600000x8x4 [1, 2] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S1600000x32.size a
  hwx1_0 : ∀ i : grid1.Coords, EltTy.bits .f32 = 32 ∨ (Rect.block (s := S1600000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x32.size a ≤ S32x32.size a
  hwx1_7 : ∀ i : grid1.Coords, EltTy.bits .f32 = 32 ∨ (Rect.block (s := S32x32) S32x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x8.size a ≤ S32x8.size a
  hwx1_11 : ∀ i : grid1.Coords, EltTy.bits .f32 = 32 ∨ (Rect.block (s := S32x8) S32x8.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x8.size a ≤ S1x8.size a
  hwx1_12 : ∀ i : grid1.Coords, EltTy.bits .f32 = 32 ∨ (Rect.block (s := S1x8) S1x8.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S20000x8.size a ≤ S1600000x8.size a
  hwx1_13 : ∀ i : grid1.Coords, EltTy.bits .f32 = 32 ∨ (Rect.block (s := S1600000x8) S20000x8.size (cc1_transform_13 i) (hinb1_13 i)).WholeWords (EltTy.packing .f32)

variable [Facts₀]

def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def dot_S20000x32_S32x8_S20000x8_1_0_0_1_n_n : DotDims S20000x32 S32x8 S20000x8 where
  lhsContracting := [1]
  rhsContracting := [0]
  lhsNonContracting := [0]
  rhsNonContracting := [1]
  lhsBatch := []
  rhsBatch := []
  wf := dot_S20000x32_S32x8_S20000x8_1_0_0_1_n_n_wf
def gather_S50000x8x4_S1600000x1_S1600000x8x4_12_0_n_n_0_1_184 : GatherDims S50000x8x4 S1600000x1 S1600000x8x4 where
  offsetDims := [1, 2]
  collapsedSliceDims := [0]
  operandBatchingDims := []
  startIndicesBatchingDims := []
  startIndexMap := [0]
  indexVectorDim := 1
  sliceSizes := ![1, 8, 4]
  wf := gather_S50000x8x4_S1600000x1_S1600000x8x4_12_0_n_n_0_1_184_wf
def scatter_S50000x8x4_S1600000x1_S1600000x8x4_12_0_0_1 : ScatterDims S50000x8x4 S1600000x1 S1600000x8x4 where
  updateWindowDims := [1, 2]
  insertedWindowDims := [0]
  scatterDimsToOperandDims := [0]
  indexVectorDim := 1
  wf := scatter_S50000x8x4_S1600000x1_S1600000x8x4_12_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S32x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg15) S32x8.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v11) S1x8.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v12) S20000x8.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S50000x32 : Shape := ⟨2, ![50000, 32]⟩
abbrev S1600000x32 : Shape := ⟨2, ![1600000, 32]⟩
abbrev S2x1600000 : Shape := ⟨2, ![2, 1600000]⟩
abbrev S32x32 : Shape := ⟨2, ![32, 32]⟩
abbrev S32 : Shape := ⟨1, ![32]⟩
abbrev S32x8 : Shape := ⟨2, ![32, 8]⟩
abbrev S8 : Shape := ⟨1, ![8]⟩
abbrev S1x8x4 : Shape := ⟨3, ![1, 8, 4]⟩
abbrev S1x32 : Shape := ⟨2, ![1, 32]⟩
abbrev S50000x8x4 : Shape := ⟨3, ![50000, 8, 4]⟩
abbrev S1600000x8 : Shape := ⟨2, ![1600000, 8]⟩
abbrev S1x8 : Shape := ⟨2, ![1, 8]⟩
abbrev S_ : Shape := ⟨0, ![]⟩
abbrev S1600000x8x1 : Shape := ⟨3, ![1600000, 8, 1]⟩
abbrev S1x1600000 : Shape := ⟨2, ![1, 1600000]⟩
abbrev S1600000 : Shape := ⟨1, ![1600000]⟩
abbrev S1600000x1 : Shape := ⟨2, ![1600000, 1]⟩
abbrev S1600000x8x4 : Shape := ⟨3, ![1600000, 8, 4]⟩
abbrev S50000 : Shape := ⟨1, ![50000]⟩
abbrev S50000x1x1 : Shape := ⟨3, ![50000, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S1600000x32, .f32⟩
  | .hbm, ⟨2, _⟩ => ⟨S2x1600000, .i32⟩
  | .hbm, ⟨3, _⟩ => ⟨S32x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32x8, .f32⟩
  | .hbm, ⟨16, _⟩ => ⟨S8, .f32⟩
  | .hbm, ⟨17, _⟩ => ⟨S1x8x4, .f32⟩
  | .hbm, ⟨18, _⟩ => ⟨S50000x32, .f32⟩
  | .hbm, ⟨19, _⟩ => ⟨S1x32, .f32⟩
  | .hbm, ⟨20, _⟩ => ⟨S50000x32, .f32⟩
  | .hbm, ⟨21, _⟩ => ⟨S50000x32, .f32⟩
  | .hbm, ⟨22, _⟩ => ⟨S50000x8x4, .f32⟩
  | .hbm, ⟨23, _⟩ => ⟨S1x32, .f32⟩
  | .hbm, ⟨24, _⟩ => ⟨S1600000x32, .f32⟩
  | .hbm, ⟨25, _⟩ => ⟨S1600000x32, .f32⟩
  | .hbm, ⟨26, _⟩ => ⟨S1x32, .f32⟩
  | .hbm, ⟨27, _⟩ => ⟨S1600000x32, .f32⟩
  | .hbm, ⟨28, _⟩ => ⟨S1600000x32, .f32⟩
  | .hbm, ⟨29, _⟩ => ⟨S1600000x32, .f32⟩
  | .hbm, ⟨30, _⟩ => ⟨S1x32, .f32⟩
  | .hbm, ⟨31, _⟩ => ⟨S1600000x32, .f32⟩
  | .hbm, ⟨32, _⟩ => ⟨S1600000x32, .f32⟩
  | .hbm, ⟨33, _⟩ => ⟨S1x32, .f32⟩
  | .hbm, ⟨34, _⟩ => ⟨S1600000x32, .f32⟩
  | .hbm, ⟨35, _⟩ => ⟨S1600000x32, .f32⟩
  | .hbm, ⟨36, _⟩ => ⟨S1x32, .f32⟩
  | .hbm, ⟨37, _⟩ => ⟨S1600000x32, .f32⟩
  | .hbm, ⟨38, _⟩ => ⟨S1600000x32, .f32⟩
  | .hbm, ⟨39, _⟩ => ⟨S1600000x32, .f32⟩
  | .hbm, ⟨40, _⟩ => ⟨S1x32, .f32⟩
  | .hbm, ⟨41, _⟩ => ⟨S1600000x32, .f32⟩
  | .hbm, ⟨42, _⟩ => ⟨S1600000x32, .f32⟩
  | .hbm, ⟨43, _⟩ => ⟨S1600000x32, .f32⟩
  | .hbm, ⟨44, _⟩ => ⟨S1x32, .f32⟩
  | .hbm, ⟨45, _⟩ => ⟨S1600000x32, .f32⟩
  | .hbm, ⟨46, _⟩ => ⟨S1600000x32, .f32⟩
  | .hbm, ⟨47, _⟩ => ⟨S1x32, .f32⟩
  | .hbm, ⟨48, _⟩ => ⟨S1600000x32, .f32⟩
  | .hbm, ⟨49, _⟩ => ⟨S1600000x32, .f32⟩
  | .hbm, ⟨50, _⟩ => ⟨S1600000x8, .f32⟩
  | .hbm, ⟨51, _⟩ => ⟨S1x8, .f32⟩
  | .hbm, ⟨52, _⟩ => ⟨S1600000x8, .f32⟩
  | .hbm, ⟨53, _⟩ => ⟨S1600000x8, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1600000x8, .f32⟩
  | .hbm, ⟨58, _⟩ => ⟨S1600000x8, .f32⟩
  | .hbm, ⟨59, _⟩ => ⟨S_, .f32⟩
  | .hbm, ⟨60, _⟩ => ⟨S1600000x8, .f32⟩
  | .hbm, ⟨61, _⟩ => ⟨S1600000x8, .f32⟩
  | .hbm, ⟨62, _⟩ => ⟨S1600000x8x1, .f32⟩
  | .hbm, ⟨63, _⟩ => ⟨S1x1600000, .i32⟩
  | .hbm, ⟨64, _⟩ => ⟨S1600000, .i32⟩
  | .hbm, ⟨65, _⟩ => ⟨S1x1600000, .i32⟩
  | .hbm, ⟨66, _⟩ => ⟨S1600000, .i32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x8x4, .f32⟩
  | .hbm, ⟨76, _⟩ => ⟨S1600000x8x4, .f32⟩
  | .hbm, ⟨77, _⟩ => ⟨S1600000x8x4, .f32⟩
  | .hbm, ⟨78, _⟩ => ⟨S_, .f32⟩
  | .hbm, ⟨79, _⟩ => ⟨S50000x8x4, .f32⟩
  | .hbm, ⟨80, _⟩ => ⟨S1600000x1, .i32⟩
  | .hbm, ⟨81, _⟩ => ⟨S50000x8x4, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S50000, .f32⟩
  | .hbm, ⟨86, _⟩ => ⟨S1600000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1x1, .f32⟩
  | .hbm, ⟨92, _⟩ => ⟨S50000x8x4, .f32⟩
  | .hbm, ⟨93, _⟩ => ⟨S50000x8x4, .f32⟩
  | .hbm, ⟨94, _⟩ => ⟨S50000x8x4, .f32⟩
  | .hbm, ⟨95, _⟩ => ⟨S50000x8x4, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_cst_0 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c : Ref sig .tc := ⟨.hbm, 67, rfl⟩
abbrev main_v42 : Ref sig .tc := ⟨.hbm, 68, rfl⟩
abbrev main_v43 : Ref sig .tc := ⟨.hbm, 69, rfl⟩
abbrev main_c_1 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_2 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_3 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S50000x32_S50000x8x4 : S50000x32.ShapeCasts S50000x8x4
  bcast_S1x32_S1600000x32_0_1 : S1x32.BroadcastsInDim S1600000x32 (![0, 1] : Fin 2 → Fin S1600000x32.rank)
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  bcast_S_S1600000x8 : S_.BroadcastsInDim S1600000x8 (![] : Fin 0 → Fin S1600000x8.rank)
  bcast_S1600000x8_S1600000x8x1_0_1 : S1600000x8.BroadcastsInDim S1600000x8x1 (![0, 1] : Fin 2 → Fin S1600000x8x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x8x1_S1600000x8x4_0_1_2 : S1600000x8x1.BroadcastsInDim S1600000x8x4 (![0, 1, 2] : Fin 3 → Fin S1600000x8x4.rank)
  bcast_S_S50000x8x4 : S_.BroadcastsInDim S50000x8x4 (![] : Fin 0 → Fin S50000x8x4.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x8x4_0_1_2 : S50000x1x1.BroadcastsInDim S50000x8x4 (![0, 1, 2] : Fin 3 → Fin S50000x8x4.rank)
  bcast_S1x8x4_S50000x8x4_0_1_2 : S1x8x4.BroadcastsInDim S50000x8x4 (![0, 1, 2] : Fin 3 → Fin S50000x8x4.rank)
  dot_S50000x32_S32x32_S50000x32_1_0_0_1_n_n_wf : DotDims.WF S50000x32 S32x32 S50000x32 [1] [0] [0] [1] [] []
  dot_S1600000x32_S32x32_S1600000x32_1_0_0_1_n_n_wf : DotDims.WF S1600000x32 S32x32 S1600000x32 [1] [0] [0] [1] [] []
  dot_S1600000x32_S32x8_S1600000x8_1_0_0_1_n_n_wf : DotDims.WF S1600000x32 S32x8 S1600000x8 [1] [0] [0] [1] [] []
  gather_S50000x8x4_S1600000x1_S1600000x8x4_12_0_n_n_0_1_184_wf : GatherDims.WF S50000x8x4 S1600000x1 S1600000x8x4 [1, 2] [0] [] [0] [] 1 ![1, 8, 4]
  scatter_S50000x8x4_S1600000x1_S1600000x8x4_12_0_0_1_wf : ScatterDims.WF S50000x8x4 S1600000x1 S1600000x8x4 [1, 2] [0] [0] 1
  scatter_S50000_S1600000x1_S1600000_n_0_0_1_wf : ScatterDims.WF S50000 S1600000x1 S1600000 [] [0] [0] 1

variable [Facts₀]

def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def dot_S1600000x32_S32x8_S1600000x8_1_0_0_1_n_n : DotDims S1600000x32 S32x8 S1600000x8 where
  lhsContracting := [1]
  rhsContracting := [0]
  lhsNonContracting := [0]
  rhsNonContracting := [1]
  lhsBatch := []
  rhsBatch := []
  wf := dot_S1600000x32_S32x8_S1600000x8_1_0_0_1_n_n_wf
def gather_S50000x8x4_S1600000x1_S1600000x8x4_12_0_n_n_0_1_184 : GatherDims S50000x8x4 S1600000x1 S1600000x8x4 where
  offsetDims := [1, 2]
  collapsedSliceDims := [0]
  operandBatchingDims := []
  startIndicesBatchingDims := []
  startIndexMap := [0]
  indexVectorDim := 1
  sliceSizes := ![1, 8, 4]
  wf := gather_S50000x8x4_S1600000x1_S1600000x8x4_12_0_n_n_0_1_184_wf
def scatter_S50000x8x4_S1600000x1_S1600000x8x4_12_0_0_1 : ScatterDims S50000x8x4 S1600000x1 S1600000x8x4 where
  updateWindowDims := [1, 2]
  insertedWindowDims := [0]
  scatterDimsToOperandDims := [0]
  indexVectorDim := 1
  wf := scatter_S50000x8x4_S1600000x1_S1600000x8x4_12_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.Spec.lean ====
/-
  What the two programs compute before their common tail, stated once over the extended reals.

  Both stages are ROW-WISE: row `r` of the result depends on row `r` of the input only.
  * The value projection: row `r` of `x · WV + bV`, entry `j` being `(∑ k, x[r,k] · WV[k,j]) + bV[j]`.
  * The edge score: a row `e` of the edge features goes through scale-and-shift, a linear layer, scale-and-shift,
    a linear layer, the residual sum with `e`, scale-and-shift, a last linear layer into eight heads, and is
    clamped to [-5, 5] (the maximum with -5 first, then the minimum with 5).
  A change of float format is the identity on the extended reals, so the kernel's bf16 casts do not appear.
-/
import Idealize.ShloMosaic.PureOps.Ideal
import Idealize.ShloMosaic.Lib.ValueIdx

noncomputable section

namespace Cert.EdgeConv

open Idealize.ShloMosaic Idealize.ShloMosaic.ValueIdx

/-- A row times a matrix, plus a bias row: entry `j` is `(∑ k, h k · W[k,j]) + b j`. -/
def lin {K N : Nat} (h : Fin K → EReal) (W : (⟨2, ![K, N]⟩ : Shape).Idx → EReal) (b : Fin N → EReal) (j : Fin N) : EReal :=
  (∑ k : Fin K, h k * W (ix2 k j)) + b j

/-- Scale and shift, entry by entry: `h k · g k + a k`. -/
def aff {K : Nat} (h g a : Fin K → EReal) (k : Fin K) : EReal := h k * g k + a k

/-- The clamp's lower bound, the float -5. -/
def lo : EReal := Ideal.ofBits .f32 0xC0A00000#32
/-- The clamp's upper bound, the float 5. -/
def hi : EReal := Ideal.ofBits .f32 0x40A00000#32

/-- The hidden row after the two inner layers and the residual sum. -/
def hidden (e g1 a1 : Fin 32 → EReal) (W1 : (⟨2, ![32, 32]⟩ : Shape).Idx → EReal) (b1 g2 a2 : Fin 32 → EReal)
    (W2 : (⟨2, ![32, 32]⟩ : Shape).Idx → EReal) (b2 : Fin 32 → EReal) (k : Fin 32) : EReal :=
  e k + lin (aff (lin (aff e g1 a1) W1 b1) g2 a2) W2 b2 k

/-- One edge's eight clamped scores from its feature row. -/
def scoreRow (e g1 a1 : Fin 32 → EReal) (W1 : (⟨2, ![32, 32]⟩ : Shape).Idx → EReal) (b1 g2 a2 : Fin 32 → EReal)
    (W2 : (⟨2, ![32, 32]⟩ : Shape).Idx → EReal) (b2 g3 a3 : Fin 32 → EReal)
    (Wf : (⟨2, ![32, 8]⟩ : Shape).Idx → EReal) (bf : Fin 8 → EReal) (q : Fin 8) : EReal :=
  min hi (max lo (lin (aff (hidden e g1 a1 W1 b1 g2 a2 W2 b2) g3 a3) Wf bf q))

/-- The value projection of all nodes: `x · WV + bV`, index by index. -/
def valueProj (x : (⟨2, ![50000, 32]⟩ : Shape).Idx → EReal) (W : (⟨2, ![32, 32]⟩ : Shape).Idx → EReal)
    (b : (⟨1, ![32]⟩ : Shape).Idx → EReal) : (⟨2, ![50000, 32]⟩ : Shape).Idx → EReal :=
  fun i => lin (fun k => x (ix2 (i 0) k)) W (fun j => b (ix1 j)) (i 1)

/-- The clamped scores of all edges, index by index. -/
def scores (E : (⟨2, ![1600000, 32]⟩ : Shape).Idx → EReal) (g1 a1 : (⟨1, ![32]⟩ : Shape).Idx → EReal)
    (W1 : (⟨2, ![32, 32]⟩ : Shape).Idx → EReal) (b1 g2 a2 : (⟨1, ![32]⟩ : Shape).Idx → EReal)
    (W2 : (⟨2, ![32, 32]⟩ : Shape).Idx → EReal) (b2 g3 a3 : (⟨1, ![32]⟩ : Shape).Idx → EReal)
    (Wf : (⟨2, ![32, 8]⟩ : Shape).Idx → EReal) (bf : (⟨1, ![8]⟩ : Shape).Idx → EReal) :
    (⟨2, ![1600000, 8]⟩ : Shape).Idx → EReal :=
  fun i => scoreRow (fun k => E (ix2 (i 0) k)) (fun k => g1 (ix1 k)) (fun k => a1 (ix1 k)) W1 (fun k => b1 (ix1 k))
    (fun k => g2 (ix1 k)) (fun k => a2 (ix1 k)) W2 (fun k => b2 (ix1 k)) (fun k => g3 (ix1 k)) (fun k => a3 (ix1 k))
    Wf (fun k => bf (ix1 k)) (i 1)

end Cert.EdgeConv

end
-- ==== Proof.KernelBody.lean ====
/-
  The two kernel bodies, read at an index of their output block.

  A body loads whole blocks, computes, and stores one whole block.  Entry `(p, j)` of the stored block depends on row `p`
  of the row-blocked input only: a `[1, n]` vector broadcast over the rows reads the vector at column `j`; a matrix product
  into a zero accumulator reads the sum over `k` of left `(p, k)` times right `(k, j)`; the bf16 casts are the identity on the
  extended reals.  So the value-projection body's entry is the specification's `lin` of the row, and the edge body's entry
  is its `scoreRow`.
-/
import proofs.«105621_j66271345377495_1_alg».proof.Proof.Gen.KernelIdeal.Skeleton
import proofs.«105621_j66271345377495_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.EdgeConv Idealize.ShloMosaic Idealize.ShloMosaic.ValueIdx

/-! ## The three matrix products at an index -/

/-- The contraction's left operand index at `(p, j)` and `k`: row `p`. -/
theorem mmNode_l0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
/-- The contraction's right operand index at `(p, j)` and `k`: column `j`. -/
theorem mmNode_r1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl
/-- The product into a zero accumulator, read at `(p, j)`: the sum over `k` of left `(p, k)` times right `(k, j)`. -/
theorem mmNode {φ₁ φ₂ : FTy} (l : FVec Ideal S5000x32 φ₁) (w : FVec Ideal S32x32 φ₂) (p : Fin 5000) (j : Fin 32) :
    matmul dot_S5000x32_S32x32_S5000x32_1_0_0_1_n_n none l w (constant S5000x32 .f32 0x00000000#32) (ix2 p j) = ∑ k : Fin 32, l (ix2 p k) * w (ix2 k j) := by
  refine (Ideal.matmul_constant_zero_apply dot_S5000x32_S32x32_S5000x32_1_0_0_1_n_n none l w (ix2 p j)).trans ?_
  rw [← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p j) ((ValueIdx.contrEquiv1 dot_S5000x32_S32x32_S5000x32_1_0_0_1_n_n 32 rfl rfl).symm k) = ix2 p k := funext fun a => Fin.ext (by
    match a with
    | ⟨0, _⟩ => exact mmNode_l0 _ _
    | ⟨1, _⟩ => exact (dot_S5000x32_S32x32_S5000x32_1_0_0_1_n_n.lhsIdx_val_of_single rfl _ _).trans hk)
  have er : dot_S5000x32_S32x32_S5000x32_1_0_0_1_n_n.rhsIdx (ix2 p j) ((ValueIdx.contrEquiv1 dot_S5000x32_S32x32_S5000x32_1_0_0_1_n_n 32 rfl rfl).symm k) = ix2 k j := funext fun a => Fin.ext (by
    match a with
    | ⟨0, _⟩ => exact (dot_S5000x32_S32x32_S5000x32_1_0_0_1_n_n.rhsIdx_val_of_single rfl _ _).trans hk
    | ⟨1, _⟩ => exact mmNode_r1 _ _)
  rw [el, er]

/-- The contraction's left operand index at `(p, j)` and `k`: row `p`. -/
theorem mmEdge_l0 (i : S20000x32.Idx) (q : dot_S20000x32_S32x32_S20000x32_1_0_0_1_n_n.contr.Idx) : (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
/-- The contraction's right operand index at `(p, j)` and `k`: column `j`. -/
theorem mmEdge_r1 (i : S20000x32.Idx) (q : dot_S20000x32_S32x32_S20000x32_1_0_0_1_n_n.contr.Idx) : (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl
/-- The product into a zero accumulator, read at `(p, j)`: the sum over `k` of left `(p, k)` times right `(k, j)`. -/
theorem mmEdge {φ₁ φ₂ : FTy} (l : FVec Ideal S20000x32 φ₁) (w : FVec Ideal S32x32 φ₂) (p : Fin 20000) (j : Fin 32) :
    matmul dot_S20000x32_S32x32_S20000x32_1_0_0_1_n_n none l w (constant S20000x32 .f32 0x00000000#32) (ix2 p j) = ∑ k : Fin 32, l (ix2 p k) * w (ix2 k j) := by
  refine (Ideal.matmul_constant_zero_apply dot_S20000x32_S32x32_S20000x32_1_0_0_1_n_n none l w (ix2 p j)).trans ?_
  rw [← Equiv.sum_comp (ValueIdx.contrEquiv1 dot_S20000x32_S32x32_S20000x32_1_0_0_1_n_n 32 rfl rfl).symm]
  refine Finset.sum_congr rfl fun k _ => ?_
  have hk := ValueIdx.contrEquiv1_symm_val dot_S20000x32_S32x32_S20000x32_1_0_0_1_n_n 32 rfl rfl k
  have el : dot_S20000x32_S32x32_S20000x32_1_0_0_1_n_n.lhsIdx (ix2 p j) ((ValueIdx.contrEquiv1 dot_S20000x32_S32x32_S20000x32_1_0_0_1_n_n 32 rfl rfl).symm k) = ix2 p k := funext fun a => Fin.ext (by
    match a with
    | ⟨0, _⟩ => exact mmEdge_l0 _ _
    | ⟨1, _⟩ => exact (dot_S20000x32_S32x32_S20000x32_1_0_0_1_n_n.lhsIdx_val_of_single rfl _ _).trans hk)
  have er : dot_S20000x32_S32x32_S20000x32_1_0_0_1_n_n.rhsIdx (ix2 p j) ((ValueIdx.contrEquiv1 dot_S20000x32_S32x32_S20000x32_1_0_0_1_n_n 32 rfl rfl).symm k) = ix2 k j := funext fun a => Fin.ext (by
    match a with
    | ⟨0, _⟩ => exact (dot_S20000x32_S32x32_S20000x32_1_0_0_1_n_n.rhsIdx_val_of_single rfl _ _).trans hk
    | ⟨1, _⟩ => exact mmEdge_r1 _ _)
  rw [el, er]

/-- The contraction's left operand index at `(p, j)` and `k`: row `p`. -/
theorem mmHead_l0 (i : S20000x8.Idx) (q : dot_S20000x32_S32x8_S20000x8_1_0_0_1_n_n.contr.Idx) : (dot_S20000x32_S32x8_S20000x8_1_0_0_1_n_n.lhsIdx i q 0).val = (i 0).val := by
  unfold DotDims.lhsIdx
  rw [dif_neg (show ¬(0 : Fin S20000x32.rank) ∈ dot_S20000x32_S32x8_S20000x8_1_0_0_1_n_n.lhsBatch by decide), dif_pos (show (0 : Fin S20000x32.rank) ∈ dot_S20000x32_S32x8_S20000x8_1_0_0_1_n_n.lhsNonContracting by decide)]
  rfl
/-- The contraction's right operand index at `(p, j)` and `k`: column `j`. -/
theorem mmHead_r1 (i : S20000x8.Idx) (q : dot_S20000x32_S32x8_S20000x8_1_0_0_1_n_n.contr.Idx) : (dot_S20000x32_S32x8_S20000x8_1_0_0_1_n_n.rhsIdx i q 1).val = (i 1).val := by
  unfold DotDims.rhsIdx
  rw [dif_neg (show ¬(1 : Fin S32x8.rank) ∈ dot_S20000x32_S32x8_S20000x8_1_0_0_1_n_n.rhsBatch by decide), dif_pos (show (1 : Fin S32x8.rank) ∈ dot_S20000x32_S32x8_S20000x8_1_0_0_1_n_n.rhsNonContracting by decide)]
  rfl
/-- The product into a zero accumulator, read at `(p, j)`: the sum over `k` of left `(p, k)` times right `(k, j)`. -/
theorem mmHead {φ₁ φ₂ : FTy} (l : FVec Ideal S20000x32 φ₁) (w : FVec Ideal S32x8 φ₂) (p : Fin 20000) (j : Fin 8) :
    matmul dot_S20000x32_S32x8_S20000x8_1_0_0_1_n_n none l w (constant S20000x8 .f32 0x00000000#32) (ix2 p j) = ∑ k : Fin 32, l (ix2 p k) * w (ix2 k j) := by
  refine (Ideal.matmul_constant_zero_apply dot_S20000x32_S32x8_S20000x8_1_0_0_1_n_n none l w (ix2 p j)).trans ?_
  rw [← Equiv.sum_comp (ValueIdx.contrEquiv1 dot_S20000x32_S32x8_S20000x8_1_0_0_1_n_n 32 rfl rfl).symm]
  refine Finset.sum_congr rfl fun k _ => ?_
  have hk := ValueIdx.contrEquiv1_symm_val dot_S20000x32_S32x8_S20000x8_1_0_0_1_n_n 32 rfl rfl k
  have el : dot_S20000x32_S32x8_S20000x8_1_0_0_1_n_n.lhsIdx (ix2 p j) ((ValueIdx.contrEquiv1 dot_S20000x32_S32x8_S20000x8_1_0_0_1_n_n 32 rfl rfl).symm k) = ix2 p k := funext fun a => Fin.ext (by
    match a with
    | ⟨0, _⟩ => exact mmHead_l0 _ _
    | ⟨1, _⟩ => exact (dot_S20000x32_S32x8_S20000x8_1_0_0_1_n_n.lhsIdx_val_of_single rfl _ _).trans hk)
  have er : dot_S20000x32_S32x8_S20000x8_1_0_0_1_n_n.rhsIdx (ix2 p j) ((ValueIdx.contrEquiv1 dot_S20000x32_S32x8_S20000x8_1_0_0_1_n_n 32 rfl rfl).symm k) = ix2 k j := funext fun a => Fin.ext (by
    match a with
    | ⟨0, _⟩ => exact (dot_S20000x32_S32x8_S20000x8_1_0_0_1_n_n.rhsIdx_val_of_single rfl _ _).trans hk
    | ⟨1, _⟩ => exact mmHead_r1 _ _)
  rw [el, er]

/-! ## A row vector broadcast over the rows -/

theorem rowNode (v : Vec Ideal S1x32 .f32) (p : Fin 5000) (k : Fin 32) :
    broadcastTo S5000x32 (shapeCast S1x32 v shapeCasts_S1x32_S1x32) broadcasts_S1x32_S5000x32 (ix2 p k) = v (ix2 (0 : Fin 1) k) := by
  rw [shapeCast_self]; exact broadcastTo_1b_ab_apply v _ p k
theorem rowEdge (v : Vec Ideal S1x32 .f32) (p : Fin 20000) (k : Fin 32) :
    broadcastTo S20000x32 (shapeCast S1x32 v shapeCasts_S1x32_S1x32) broadcasts_S1x32_S20000x32 (ix2 p k) = v (ix2 (0 : Fin 1) k) := by
  rw [shapeCast_self]; exact broadcastTo_1b_ab_apply v _ p k
theorem rowHead (v : Vec Ideal S1x8 .f32) (p : Fin 20000) (k : Fin 8) :
    broadcastTo S20000x8 (shapeCast S1x8 v shapeCasts_S1x8_S1x8) broadcasts_S1x8_S20000x8 (ix2 p k) = v (ix2 (0 : Fin 1) k) := by
  rw [shapeCast_self]; exact broadcastTo_1b_ab_apply v _ p k

/-! ## Layers at an index, over any input vector -/

/-- Scale and shift by two broadcast row vectors. -/
theorem affEdge (X : FVec Ideal S20000x32 .f32) (g a : Vec Ideal S1x32 .f32) (p : Fin 20000) (k : Fin 32) :
    addf (mulf X (broadcastTo S20000x32 (shapeCast S1x32 g shapeCasts_S1x32_S1x32) broadcasts_S1x32_S20000x32))
      (broadcastTo S20000x32 (shapeCast S1x32 a shapeCasts_S1x32_S1x32) broadcasts_S1x32_S20000x32) (ix2 p k)
    = X (ix2 p k) * g (ix2 (0 : Fin 1) k) + a (ix2 (0 : Fin 1) k) := by
  rw [addf_apply, mulf_apply, rowEdge, rowEdge]

/-- A linear layer: the product with the (cast) weights plus a broadcast bias row. -/
theorem linEdge (X : FVec Ideal S20000x32 .f32) (W : FVec Ideal S32x32 .f32) (b : Vec Ideal S1x32 .f32) (h1 h2 : FTy.bf16.bits < FTy.f32.bits) (p : Fin 20000) (j : Fin 32) :
    addf (matmul dot_S20000x32_S32x32_S20000x32_1_0_0_1_n_n none (truncf .bf16 X h1) (truncf .bf16 W h2) (constant S20000x32 .f32 0x00000000#32))
      (broadcastTo S20000x32 (shapeCast S1x32 b shapeCasts_S1x32_S1x32) broadcasts_S1x32_S20000x32) (ix2 p j)
    = (∑ k : Fin 32, X (ix2 p k) * W (ix2 k j)) + b (ix2 (0 : Fin 1) j) := by
  rw [addf_apply, mmEdge, rowEdge]
  rfl

/-- The last scale and shift: a product of two blocks plus a broadcast row vector. -/
theorem affProd (A B : FVec Ideal S20000x32 .f32) (a : Vec Ideal S1x32 .f32) (p : Fin 20000) (k : Fin 32) :
    addf (mulf A B) (broadcastTo S20000x32 (shapeCast S1x32 a shapeCasts_S1x32_S1x32) broadcasts_S1x32_S20000x32) (ix2 p k)
    = A (ix2 p k) * B (ix2 p k) + a (ix2 (0 : Fin 1) k) := by
  rw [addf_apply, mulf_apply, rowEdge]

/-- The last linear layer, into eight heads. -/
theorem linHead (X : FVec Ideal S20000x32 .f32) (W : FVec Ideal S32x8 .f32) (b : Vec Ideal S1x8 .f32) (h1 h2 : FTy.bf16.bits < FTy.f32.bits) (p : Fin 20000) (q : Fin 8) :
    addf (matmul dot_S20000x32_S32x8_S20000x8_1_0_0_1_n_n none (truncf .bf16 X h1) (truncf .bf16 W h2) (constant S20000x8 .f32 0x00000000#32))
      (broadcastTo S20000x8 (shapeCast S1x8 b shapeCasts_S1x8_S1x8) broadcasts_S1x8_S20000x8) (ix2 p q)
    = (∑ k : Fin 32, X (ix2 p k) * W (ix2 k q)) + b (ix2 (0 : Fin 1) q) := by
  rw [addf_apply, mmHead, rowHead]
  rfl

/-! ## The value-projection body -/

/-- Entry `(p, j)` of the stored block: row `p` of the node block times the weights, plus the bias at `j`. -/
theorem node_pay (v0 : Vec Ideal S5000x32 .f32) (v2 : Vec Ideal S32x32 .f32) (v5 : Vec Ideal S1x32 .f32) (p : Fin 5000) (j : Fin 32) :
    k0_pay1 (F := Ideal) v0 v2 v5 (ix2 p j) = lin (fun k => v0 (ix2 p k)) v2 (fun k => v5 (ix2 (0 : Fin 1) k)) j := by
  dsimp only [k0_pay1]
  rw [addf_apply, mmNode, rowNode]
  rfl

/-! ## The edge body -/

/-- The hidden row after the two inner layers and the residual sum. -/
theorem edge_hidden (v0 : Vec Ideal S20000x32 .f32) (v1 v5 : Vec Ideal S1x32 .f32) (v10 : Vec Ideal S32x32 .f32) (v13 v17 v21 : Vec Ideal S1x32 .f32)
    (v26 : Vec Ideal S32x32 .f32) (v29 : Vec Ideal S1x32 .f32) (p : Fin 20000) (j : Fin 32) :
    k1_pay2 (F := Ideal) v0 v1 v5 v10 v13 v17 v21 v26 v29 (ix2 p j)
      = hidden (fun k => v0 (ix2 p k)) (fun k => v1 (ix2 (0 : Fin 1) k)) (fun k => v5 (ix2 (0 : Fin 1) k)) v10 (fun k => v13 (ix2 (0 : Fin 1) k)) (fun k => v17 (ix2 (0 : Fin 1) k)) (fun k => v21 (ix2 (0 : Fin 1) k)) v26 (fun k => v29 (ix2 (0 : Fin 1) k)) j := by
  dsimp only [k1_pay2]
  rw [addf_apply, linEdge]
  simp only [affEdge, linEdge]
  rfl

/-- The third scale vector broadcast over the rows. -/
theorem edge_g3 (v34 : Vec Ideal S1x32 .f32) (p : Fin 20000) (k : Fin 32) : k1_pay3 (F := Ideal) v34 (ix2 p k) = v34 (ix2 (0 : Fin 1) k) := by
  dsimp only [k1_pay3]
  exact rowEdge v34 p k

/-- The last layer and the clamp, over any hidden block `A` and broadcast scale `B`. -/
theorem edge_head (A B : FVec Ideal S20000x32 .f32) (v38 : Vec Ideal S1x32 .f32) (v43 : Vec Ideal S32x8 .f32) (v46 : Vec Ideal S1x8 .f32) (p : Fin 20000) (q : Fin 8) :
    k1_pay1 (F := Ideal) A B v38 v43 v46 (ix2 p q)
      = min hi (max lo ((∑ k : Fin 32, (A (ix2 p k) * B (ix2 p k) + v38 (ix2 (0 : Fin 1) k)) * v43 (ix2 k q)) + v46 (ix2 (0 : Fin 1) q))) := by
  dsimp only [k1_pay1]
  rw [minimumf_apply, maximumf_apply, linHead]
  simp only [affProd]
  rfl

/-- Entry `(p, q)` of the stored score block is the specification's clamped score of row `p`. -/
theorem edge_pay (x0 : Vec Ideal S20000x32 .f32) (x1 x2 : Vec Ideal S1x32 .f32) (x3 : Vec Ideal S32x32 .f32) (x4 x5 x6 : Vec Ideal S1x32 .f32)
    (x7 : Vec Ideal S32x32 .f32) (x8 x9 x10 : Vec Ideal S1x32 .f32) (x11 : Vec Ideal S32x8 .f32) (x12 : Vec Ideal S1x8 .f32) (p : Fin 20000) (q : Fin 8) :
    k1_pay1 (F := Ideal) (k1_pay2 x0 x1 x2 x3 x4 x5 x6 x7 x8) (k1_pay3 x9) x10 x11 x12 (ix2 p q)
      = scoreRow (fun k => x0 (ix2 p k)) (fun k => x1 (ix2 (0 : Fin 1) k)) (fun k => x2 (ix2 (0 : Fin 1) k)) x3 (fun k => x4 (ix2 (0 : Fin 1) k)) (fun k => x5 (ix2 (0 : Fin 1) k)) (fun k => x6 (ix2 (0 : Fin 1) k)) x7 (fun k => x8 (ix2 (0 : Fin 1) k))
          (fun k => x9 (ix2 (0 : Fin 1) k)) (fun k => x10 (ix2 (0 : Fin 1) k)) x11 (fun k => x12 (ix2 (0 : Fin 1) k)) q := by
  rw [edge_head]
  simp only [edge_hidden, edge_g3]
  rfl

end Cert.KernelIdeal.Body

end
-- ==== Proof.KernelArrays.lean ====
/-
  From blocks to arrays: what each region's output array holds when the region ends.

  The value-projection region walks ten points; point `t` reads rows `5000·t … 5000·t + 4999` of the node features and
  the whole weight matrix and bias, and writes the same rows of its output.  The edge region walks eighty points; point `t`
  reads rows `20000·t … 20000·t + 19999` of the edge features and the whole of every parameter array, and writes the same
  rows of the score array.  A body's entry depends on its own row only, so the block a point writes back is the block of ONE
  whole-array function (the specification's `valueProj`, resp. `scores`, of the arrays as the region finds them), and the
  blocks tile the output array: every row `r` lies in the block of point `r / 5000` (resp. `r / 20000`).
-/
import proofs.«105621_j66271345377495_1_alg».proof.Proof.Gen.KernelIdeal.Frame
import proofs.«105621_j66271345377495_1_alg».proof.Proof.KernelBody

set_option maxRecDepth 16384

noncomputable section

namespace Cert.KernelIdeal.Arrays

open Cert.KernelIdeal Cert.KernelIdeal.Gen Cert.KernelIdeal.Body Cert.EdgeConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The value-projection region -/

/-- The printed index maps over the ten points: the row-blocked windows sit at block `t`, the others at block 0. -/
theorem idx0 : ∀ t : Fin cfg0.N, (win0_0.index t (0 : Fin 2) = t.val ∧ win0_0.index t (1 : Fin 2) = 0)
    ∧ (win0_3.index t (0 : Fin 2) = t.val ∧ win0_3.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- The node row that row `p` of point `t`'s block is. -/
def nodeRow (t : Fin cfg0.N) (p : Fin 5000) : Fin 50000 :=
  ⟨t.val * 5000 + p.val, by have ht : t.val < 10 := lt_of_lt_of_eq t.isLt N_0; have := p.isLt; omega⟩

theorem blk0_0 (c : Dev nD) (t : Fin cfg0.N) (p : Fin 5000) (k : Fin 32) :
    iblk0 V c 0 t (ix2 p k) = (V c main_arg0 : S50000x32.Idx → EReal) (ix2 (nodeRow t p) k) := by
  show V c main_arg0 (((cfg0.win 0).blk t).view.emb (ix2 p k)) = _
  refine congrArg (V c main_arg0) (funext fun a => Fin.ext ?_)
  have e0 : win0_0.index t (0 : Fin 2) = t.val := (idx0 t).1.1
  have e1 : win0_0.index t (1 : Fin 2) = 0 := (idx0 t).1.2
  match a with
  | ⟨0, _⟩ => show win0_0.index t (0 : Fin 2) * 5000 + 1 * p.val = t.val * 5000 + p.val; omega
  | ⟨1, _⟩ => show win0_0.index t (1 : Fin 2) * 32 + 1 * k.val = k.val; omega

theorem blk0_1 (c : Dev nD) (t : Fin cfg0.N) : (iblk0 V c 1 t : S32x32.Idx → EReal) = V c main_arg3 := by
  funext z
  show V c main_arg3 (((cfg0.win 1).blk t).view.emb z) = V c main_arg3 z
  refine congrArg (V c main_arg3) (funext fun a => Fin.ext ?_)
  have e0 : win0_1.index t (0 : Fin 2) = 0 := (idx0 t).2.2.1.1
  have e1 : win0_1.index t (1 : Fin 2) = 0 := (idx0 t).2.2.1.2
  match a with
  | ⟨0, _⟩ => show win0_1.index t (0 : Fin 2) * 32 + 1 * (z 0).val = (z 0).val; omega
  | ⟨1, _⟩ => show win0_1.index t (1 : Fin 2) * 32 + 1 * (z 1).val = (z 1).val; omega

theorem blk0_2 (c : Dev nD) (t : Fin cfg0.N) : (iblk0 V c 2 t : S1x32.Idx → EReal) = V c main_v0 := by
  funext z
  show V c main_v0 (((cfg0.win 2).blk t).view.emb z) = V c main_v0 z
  refine congrArg (V c main_v0) (funext fun a => Fin.ext ?_)
  have e0 : win0_2.index t (0 : Fin 2) = 0 := (idx0 t).2.2.2.1
  have e1 : win0_2.index t (1 : Fin 2) = 0 := (idx0 t).2.2.2.2
  match a with
  | ⟨0, _⟩ => show win0_2.index t (0 : Fin 2) * 1 + 1 * (z 0).val = (z 0).val; omega
  | ⟨1, _⟩ => show win0_2.index t (1 : Fin 2) * 32 + 1 * (z 1).val = (z 1).val; omega

theorem emb0 (t : Fin cfg0.N) (p : Fin 5000) (j : Fin 32) :
    ((cfg0.win 3).blk t).view.emb (ix2 p j) = (ix2 (nodeRow t p) j : S50000x32.Idx) := by
  funext a; apply Fin.ext
  have e0 : win0_3.index t (0 : Fin 2) = t.val := (idx0 t).2.1.1
  have e1 : win0_3.index t (1 : Fin 2) = 0 := (idx0 t).2.1.2
  match a with
  | ⟨0, _⟩ => show win0_3.index t (0 : Fin 2) * 5000 + 1 * p.val = t.val * 5000 + p.val; omega
  | ⟨1, _⟩ => show win0_3.index t (1 : Fin 2) * 32 + 1 * j.val = j.val; omega

/-- What point `t` writes back is block `t` of `x · WV + bV` of the arrays as the region finds them. -/
theorem flushed0 (c : Dev nD) (t : Fin cfg0.N) :
    (dat0 V c).flushed 3 t = ((cfg0.win 3).blk t).view.read (Elt Ideal)
      (valueProj (V c main_arg0) (V c main_arg3) (fun i => V c main_v0 (ix2 (0 : Fin 1) (i 0)))) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x32) hz, View.ld_unit_zero (S := S1x32) hz]
  funext y
  obtain ⟨p, j, rfl⟩ : ∃ (p : Fin 5000) (j : Fin 32), y = ix2 p j := ⟨y 0, y 1, eq_ix2 y⟩
  show k0_pay1 (F := Ideal) (iblk0 V c 0 t) (iblk0 V c 1 t) (iblk0 V c 2 t) (ix2 p j)
    = valueProj (V c main_arg0) (V c main_arg3) (fun i => V c main_v0 (ix2 (0 : Fin 1) (i 0))) (((cfg0.win 3).blk t).view.emb (ix2 p j))
  refine (node_pay (iblk0 V c 0 t) (iblk0 V c 1 t) (iblk0 V c 2 t) p j).trans ?_
  rw [emb0, blk0_1 V c t, blk0_2 V c t]
  simp only [blk0_0 V c t]
  rfl

theorem mem_blk0 (t : Fin cfg0.N) (i : S50000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v1).slice (win0_3.rect t)).set ↔ _
  rw [View.set_slice_whole, Rect.mem_set_unit]
  exact Iff.rfl

/-- Row `r` lies in the block of point `r / 5000`. -/
theorem cover0 (i : S50000x32.Idx) : ∃ t : Fin cfg0.N, (cfg0.win 3).flush t = true ∧ i ∈ ((cfg0.win 3).blk t).view.set := by
  have hi0 : (i 0).val < 50000 := (i 0).isLt
  have hi1 : (i 1).val < 32 := (i 1).isLt
  have hlt : (i 0).val / 5000 < cfg0.N := by show (i 0).val / 5000 < grid0.N; rw [N_0]; omega
  refine ⟨⟨(i 0).val / 5000, hlt⟩, flush0_3 _, ?_⟩
  rw [mem_blk0]
  have e0 : win0_3.index ⟨(i 0).val / 5000, hlt⟩ (0 : Fin 2) = (i 0).val / 5000 := (idx0 _).2.1.1
  have e1 : win0_3.index ⟨(i 0).val / 5000, hlt⟩ (1 : Fin 2) = 0 := (idx0 _).2.1.2
  intro a
  match a with
  | ⟨0, _⟩ => show win0_3.index ⟨(i 0).val / 5000, hlt⟩ (0 : Fin 2) * 5000 ≤ (i 0).val ∧ (i 0).val < win0_3.index ⟨(i 0).val / 5000, hlt⟩ (0 : Fin 2) * 5000 + 5000; omega
  | ⟨1, _⟩ => show win0_3.index ⟨(i 0).val / 5000, hlt⟩ (1 : Fin 2) * 32 ≤ (i 1).val ∧ (i 1).val < win0_3.index ⟨(i 0).val / 5000, hlt⟩ (1 : Fin 2) * 32 + 32; omega

/-- The projected node array after the region. -/
theorem nodeArray (c : Dev nD) :
    (dat0 V c).arrAt 3 cfg0.N = valueProj (V c main_arg0) (V c main_arg3) (fun i => V c main_v0 (ix2 (0 : Fin 1) (i 0))) :=
  (dat0 V c).arrAt_eq_of_cover 3 _ (fun t _ => flushed0 V c t) cover0

/-! ## The edge region -/

/-- The printed index maps over the eighty points: the row-blocked windows sit at block `t`, the parameters at block 0. -/
theorem idx1 : ∀ t : Fin cfg1.N, (win1_0.index t (0 : Fin 2) = t.val ∧ win1_0.index t (1 : Fin 2) = 0)
    ∧ (win1_13.index t (0 : Fin 2) = t.val ∧ win1_13.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0) :=
  (by decide +kernel : ∀ t : Fin grid1.N, _)

/-- The edge row that row `p` of point `t`'s block is. -/
def edgeRow (t : Fin cfg1.N) (p : Fin 20000) : Fin 1600000 :=
  ⟨t.val * 20000 + p.val, by have ht : t.val < 80 := lt_of_lt_of_eq t.isLt N_1; have := p.isLt; omega⟩

theorem blk1_0 (c : Dev nD) (t : Fin cfg1.N) (p : Fin 20000) (k : Fin 32) :
    iblk1 V c 0 t (ix2 p k) = (V c main_arg1 : S1600000x32.Idx → EReal) (ix2 (edgeRow t p) k) := by
  show V c main_arg1 (((cfg1.win 0).blk t).view.emb (ix2 p k)) = _
  refine congrArg (V c main_arg1) (funext fun a => Fin.ext ?_)
  have e0 : win1_0.index t (0 : Fin 2) = t.val := (idx1 t).1.1
  have e1 : win1_0.index t (1 : Fin 2) = 0 := (idx1 t).1.2
  match a with
  | ⟨0, _⟩ => show win1_0.index t (0 : Fin 2) * 20000 + 1 * p.val = t.val * 20000 + p.val; omega
  | ⟨1, _⟩ => show win1_0.index t (1 : Fin 2) * 32 + 1 * k.val = k.val; omega

theorem blk1_1 (c : Dev nD) (t : Fin cfg1.N) : (iblk1 V c 1 t : S1x32.Idx → EReal) = V c main_v3 := by
  funext z
  show V c main_v3 (((cfg1.win 1).blk t).view.emb z) = V c main_v3 z
  refine congrArg (V c main_v3) (funext fun a => Fin.ext ?_)
  have e0 : win1_1.index t (0 : Fin 2) = 0 := (idx1 t).2.2.1.1
  have e1 : win1_1.index t (1 : Fin 2) = 0 := (idx1 t).2.2.1.2
  match a with
  | ⟨0, _⟩ => show win1_1.index t (0 : Fin 2) * 1 + 1 * (z 0).val = (z 0).val; omega
  | ⟨1, _⟩ => show win1_1.index t (1 : Fin 2) * 32 + 1 * (z 1).val = (z 1).val; omega

theorem blk1_2 (c : Dev nD) (t : Fin cfg1.N) : (iblk1 V c 2 t : S1x32.Idx → EReal) = V c main_v4 := by
  funext z
  show V c main_v4 (((cfg1.win 2).blk t).view.emb z) = V c main_v4 z
  refine congrArg (V c main_v4) (funext fun a => Fin.ext ?_)
  have e0 : win1_2.index t (0 : Fin 2) = 0 := (idx1 t).2.2.2.1.1
  have e1 : win1_2.index t (1 : Fin 2) = 0 := (idx1 t).2.2.2.1.2
  match a with
  | ⟨0, _⟩ => show win1_2.index t (0 : Fin 2) * 1 + 1 * (z 0).val = (z 0).val; omega
  | ⟨1, _⟩ => show win1_2.index t (1 : Fin 2) * 32 + 1 * (z 1).val = (z 1).val; omega

theorem blk1_3 (c : Dev nD) (t : Fin cfg1.N) : (iblk1 V c 3 t : S32x32.Idx → EReal) = V c main_arg7 := by
  funext z
  show V c main_arg7 (((cfg1.win 3).blk t).view.emb z) = V c main_arg7 z
  refine congrArg (V c main_arg7) (funext fun a => Fin.ext ?_)
  have e0 : win1_3.index t (0 : Fin 2) = 0 := (idx1 t).2.2.2.2.1.1
  have e1 : win1_3.index t (1 : Fin 2) = 0 := (idx1 t).2.2.2.2.1.2
  match a with
  | ⟨0, _⟩ => show win1_3.index t (0 : Fin 2) * 32 + 1 * (z 0).val = (z 0).val; omega
  | ⟨1, _⟩ => show win1_3.index t (1 : Fin 2) * 32 + 1 * (z 1).val = (z 1).val; omega

theorem blk1_4 (c : Dev nD) (t : Fin cfg1.N) : (iblk1 V c 4 t : S1x32.Idx → EReal) = V c main_v5 := by
  funext z
  show V c main_v5 (((cfg1.win 4).blk t).view.emb z) = V c main_v5 z
  refine congrArg (V c main_v5) (funext fun a => Fin.ext ?_)
  have e0 : win1_4.index t (0 : Fin 2) = 0 := (idx1 t).2.2.2.2.2.1.1
  have e1 : win1_4.index t (1 : Fin 2) = 0 := (idx1 t).2.2.2.2.2.1.2
  match a with
  | ⟨0, _⟩ => show win1_4.index t (0 : Fin 2) * 1 + 1 * (z 0).val = (z 0).val; omega
  | ⟨1, _⟩ => show win1_4.index t (1 : Fin 2) * 32 + 1 * (z 1).val = (z 1).val; omega

theorem blk1_5 (c : Dev nD) (t : Fin cfg1.N) : (iblk1 V c 5 t : S1x32.Idx → EReal) = V c main_v6 := by
  funext z
  show V c main_v6 (((cfg1.win 5).blk t).view.emb z) = V c main_v6 z
  refine congrArg (V c main_v6) (funext fun a => Fin.ext ?_)
  have e0 : win1_5.index t (0 : Fin 2) = 0 := (idx1 t).2.2.2.2.2.2.1.1
  have e1 : win1_5.index t (1 : Fin 2) = 0 := (idx1 t).2.2.2.2.2.2.1.2
  match a with
  | ⟨0, _⟩ => show win1_5.index t (0 : Fin 2) * 1 + 1 * (z 0).val = (z 0).val; omega
  | ⟨1, _⟩ => show win1_5.index t (1 : Fin 2) * 32 + 1 * (z 1).val = (z 1).val; omega

theorem blk1_6 (c : Dev nD) (t : Fin cfg1.N) : (iblk1 V c 6 t : S1x32.Idx → EReal) = V c main_v7 := by
  funext z
  show V c main_v7 (((cfg1.win 6).blk t).view.emb z) = V c main_v7 z
  refine congrArg (V c main_v7) (funext fun a => Fin.ext ?_)
  have e0 : win1_6.index t (0 : Fin 2) = 0 := (idx1 t).2.2.2.2.2.2.2.1.1
  have e1 : win1_6.index t (1 : Fin 2) = 0 := (idx1 t).2.2.2.2.2.2.2.1.2
  match a with
  | ⟨0, _⟩ => show win1_6.index t (0 : Fin 2) * 1 + 1 * (z 0).val = (z 0).val; omega
  | ⟨1, _⟩ => show win1_6.index t (1 : Fin 2) * 32 + 1 * (z 1).val = (z 1).val; omega

theorem blk1_7 (c : Dev nD) (t : Fin cfg1.N) : (iblk1 V c 7 t : S32x32.Idx → EReal) = V c main_arg11 := by
  funext z
  show V c main_arg11 (((cfg1.win 7).blk t).view.emb z) = V c main_arg11 z
  refine congrArg (V c main_arg11) (funext fun a => Fin.ext ?_)
  have e0 : win1_7.index t (0 : Fin 2) = 0 := (idx1 t).2.2.2.2.2.2.2.2.1.1
  have e1 : win1_7.index t (1 : Fin 2) = 0 := (idx1 t).2.2.2.2.2.2.2.2.1.2
  match a with
  | ⟨0, _⟩ => show win1_7.index t (0 : Fin 2) * 32 + 1 * (z 0).val = (z 0).val; omega
  | ⟨1, _⟩ => show win1_7.index t (1 : Fin 2) * 32 + 1 * (z 1).val = (z 1).val; omega

theorem blk1_8 (c : Dev nD) (t : Fin cfg1.N) : (iblk1 V c 8 t : S1x32.Idx → EReal) = V c main_v8 := by
  funext z
  show V c main_v8 (((cfg1.win 8).blk t).view.emb z) = V c main_v8 z
  refine congrArg (V c main_v8) (funext fun a => Fin.ext ?_)
  have e0 : win1_8.index t (0 : Fin 2) = 0 := (idx1 t).2.2.2.2.2.2.2.2.2.1.1
  have e1 : win1_8.index t (1 : Fin 2) = 0 := (idx1 t).2.2.2.2.2.2.2.2.2.1.2
  match a with
  | ⟨0, _⟩ => show win1_8.index t (0 : Fin 2) * 1 + 1 * (z 0).val = (z 0).val; omega
  | ⟨1, _⟩ => show win1_8.index t (1 : Fin 2) * 32 + 1 * (z 1).val = (z 1).val; omega

theorem blk1_9 (c : Dev nD) (t : Fin cfg1.N) : (iblk1 V c 9 t : S1x32.Idx → EReal) = V c main_v9 := by
  funext z
  show V c main_v9 (((cfg1.win 9).blk t).view.emb z) = V c main_v9 z
  refine congrArg (V c main_v9) (funext fun a => Fin.ext ?_)
  have e0 : win1_9.index t (0 : Fin 2) = 0 := (idx1 t).2.2.2.2.2.2.2.2.2.2.1.1
  have e1 : win1_9.index t (1 : Fin 2) = 0 := (idx1 t).2.2.2.2.2.2.2.2.2.2.1.2
  match a with
  | ⟨0, _⟩ => show win1_9.index t (0 : Fin 2) * 1 + 1 * (z 0).val = (z 0).val; omega
  | ⟨1, _⟩ => show win1_9.index t (1 : Fin 2) * 32 + 1 * (z 1).val = (z 1).val; omega

theorem blk1_10 (c : Dev nD) (t : Fin cfg1.N) : (iblk1 V c 10 t : S1x32.Idx → EReal) = V c main_v10 := by
  funext z
  show V c main_v10 (((cfg1.win 10).blk t).view.emb z) = V c main_v10 z
  refine congrArg (V c main_v10) (funext fun a => Fin.ext ?_)
  have e0 : win1_10.index t (0 : Fin 2) = 0 := (idx1 t).2.2.2.2.2.2.2.2.2.2.2.1.1
  have e1 : win1_10.index t (1 : Fin 2) = 0 := (idx1 t).2.2.2.2.2.2.2.2.2.2.2.1.2
  match a with
  | ⟨0, _⟩ => show win1_10.index t (0 : Fin 2) * 1 + 1 * (z 0).val = (z 0).val; omega
  | ⟨1, _⟩ => show win1_10.index t (1 : Fin 2) * 32 + 1 * (z 1).val = (z 1).val; omega

theorem blk1_11 (c : Dev nD) (t : Fin cfg1.N) : (iblk1 V c 11 t : S32x8.Idx → EReal) = V c main_arg15 := by
  funext z
  show V c main_arg15 (((cfg1.win 11).blk t).view.emb z) = V c main_arg15 z
  refine congrArg (V c main_arg15) (funext fun a => Fin.ext ?_)
  have e0 : win1_11.index t (0 : Fin 2) = 0 := (idx1 t).2.2.2.2.2.2.2.2.2.2.2.2.1.1
  have e1 : win1_11.index t (1 : Fin 2) = 0 := (idx1 t).2.2.2.2.2.2.2.2.2.2.2.2.1.2
  match a with
  | ⟨0, _⟩ => show win1_11.index t (0 : Fin 2) * 32 + 1 * (z 0).val = (z 0).val; omega
  | ⟨1, _⟩ => show win1_11.index t (1 : Fin 2) * 8 + 1 * (z 1).val = (z 1).val; omega

theorem blk1_12 (c : Dev nD) (t : Fin cfg1.N) : (iblk1 V c 12 t : S1x8.Idx → EReal) = V c main_v11 := by
  funext z
  show V c main_v11 (((cfg1.win 12).blk t).view.emb z) = V c main_v11 z
  refine congrArg (V c main_v11) (funext fun a => Fin.ext ?_)
  have e0 : win1_12.index t (0 : Fin 2) = 0 := (idx1 t).2.2.2.2.2.2.2.2.2.2.2.2.2.1
  have e1 : win1_12.index t (1 : Fin 2) = 0 := (idx1 t).2.2.2.2.2.2.2.2.2.2.2.2.2.2
  match a with
  | ⟨0, _⟩ => show win1_12.index t (0 : Fin 2) * 1 + 1 * (z 0).val = (z 0).val; omega
  | ⟨1, _⟩ => show win1_12.index t (1 : Fin 2) * 8 + 1 * (z 1).val = (z 1).val; omega

theorem emb1 (t : Fin cfg1.N) (p : Fin 20000) (q : Fin 8) :
    ((cfg1.win 13).blk t).view.emb (ix2 p q) = (ix2 (edgeRow t p) q : S1600000x8.Idx) := by
  funext a; apply Fin.ext
  have e0 : win1_13.index t (0 : Fin 2) = t.val := (idx1 t).2.1.1
  have e1 : win1_13.index t (1 : Fin 2) = 0 := (idx1 t).2.1.2
  match a with
  | ⟨0, _⟩ => show win1_13.index t (0 : Fin 2) * 20000 + 1 * p.val = t.val * 20000 + p.val; omega
  | ⟨1, _⟩ => show win1_13.index t (1 : Fin 2) * 8 + 1 * q.val = q.val; omega

/-- The score array the edge region computes, from the arrays as the region finds them. -/
abbrev edgeScores (c : Dev nD) : S1600000x8.Idx → EReal :=
  scores (V c main_arg1) (fun i => V c main_v3 (ix2 (0 : Fin 1) (i 0))) (fun i => V c main_v4 (ix2 (0 : Fin 1) (i 0))) (V c main_arg7) (fun i => V c main_v5 (ix2 (0 : Fin 1) (i 0)))
    (fun i => V c main_v6 (ix2 (0 : Fin 1) (i 0))) (fun i => V c main_v7 (ix2 (0 : Fin 1) (i 0))) (V c main_arg11) (fun i => V c main_v8 (ix2 (0 : Fin 1) (i 0))) (fun i => V c main_v9 (ix2 (0 : Fin 1) (i 0))) (fun i => V c main_v10 (ix2 (0 : Fin 1) (i 0)))
    (V c main_arg15) (fun i => V c main_v11 (ix2 (0 : Fin 1) (i 0)))

/-- What point `t` writes back is block `t` of the clamped scores of the arrays as the region finds them. -/
theorem flushed1 (c : Dev nD) (t : Fin cfg1.N) :
    (dat1 V c).flushed 13 t = ((cfg1.win 13).blk t).view.read (Elt Ideal) (edgeScores V c) := by
  show (cfg1.win 13).cut (grid1.coords t) ((dat1 V c).after 13 t) = _
  rw [after1_13]
  unfold out1_13
  rw [View.canon_unit_zero hz]
  simp only [View.ld_unit_zero (S := S20000x32) hz, View.ld_unit_zero (S := S32x32) hz, View.ld_unit_zero (S := S1x32) hz,
    View.ld_unit_zero (S := S32x8) hz, View.ld_unit_zero (S := S1x8) hz]
  funext y
  obtain ⟨p, q, rfl⟩ : ∃ (p : Fin 20000) (q : Fin 8), y = ix2 p q := ⟨y 0, y 1, eq_ix2 y⟩
  show k1_pay1 (F := Ideal) (k1_pay2 (iblk1 V c 0 t) (iblk1 V c 1 t) (iblk1 V c 2 t) (iblk1 V c 3 t) (iblk1 V c 4 t) (iblk1 V c 5 t)
      (iblk1 V c 6 t) (iblk1 V c 7 t) (iblk1 V c 8 t)) (k1_pay3 (iblk1 V c 9 t)) (iblk1 V c 10 t) (iblk1 V c 11 t) (iblk1 V c 12 t) (ix2 p q)
    = edgeScores V c (((cfg1.win 13).blk t).view.emb (ix2 p q))
  refine (edge_pay (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t) (iblk1 V c 12 t) p q).trans ?_
  rw [emb1, blk1_1 V c t, blk1_2 V c t, blk1_3 V c t, blk1_4 V c t, blk1_5 V c t, blk1_6 V c t, blk1_7 V c t, blk1_8 V c t, blk1_9 V c t, blk1_10 V c t, blk1_11 V c t, blk1_12 V c t]
  simp only [blk1_0 V c t]
  rfl

theorem mem_blk1 (t : Fin cfg1.N) (i : S1600000x8.Idx) :
    i ∈ ((cfg1.win 13).blk t).view.set ↔ ∀ a : Fin 2, win1_13.index t a * S20000x8.size a ≤ (i a).val ∧ (i a).val < win1_13.index t a * S20000x8.size a + S20000x8.size a := by
  show i ∈ ((View.whole main_v12).slice (win1_13.rect t)).set ↔ _
  rw [View.set_slice_whole, Rect.mem_set_unit]
  exact Iff.rfl

/-- Row `r` lies in the block of point `r / 20000`. -/
theorem cover1 (i : S1600000x8.Idx) : ∃ t : Fin cfg1.N, (cfg1.win 13).flush t = true ∧ i ∈ ((cfg1.win 13).blk t).view.set := by
  have hi0 : (i 0).val < 1600000 := (i 0).isLt
  have hi1 : (i 1).val < 8 := (i 1).isLt
  have hlt : (i 0).val / 20000 < cfg1.N := by show (i 0).val / 20000 < grid1.N; rw [N_1]; omega
  refine ⟨⟨(i 0).val / 20000, hlt⟩, flush1_13 _, ?_⟩
  rw [mem_blk1]
  have e0 : win1_13.index ⟨(i 0).val / 20000, hlt⟩ (0 : Fin 2) = (i 0).val / 20000 := (idx1 _).2.1.1
  have e1 : win1_13.index ⟨(i 0).val / 20000, hlt⟩ (1 : Fin 2) = 0 := (idx1 _).2.1.2
  intro a
  match a with
  | ⟨0, _⟩ => show win1_13.index ⟨(i 0).val / 20000, hlt⟩ (0 : Fin 2) * 20000 ≤ (i 0).val ∧ (i 0).val < win1_13.index ⟨(i 0).val / 20000, hlt⟩ (0 : Fin 2) * 20000 + 20000; omega
  | ⟨1, _⟩ => show win1_13.index ⟨(i 0).val / 20000, hlt⟩ (1 : Fin 2) * 8 ≤ (i 1).val ∧ (i 1).val < win1_13.index ⟨(i 0).val / 20000, hlt⟩ (1 : Fin 2) * 8 + 8; omega

/-- The score array after the region. -/
theorem scoreArray (c : Dev nD) : (dat1 V c).arrAt 13 cfg1.N = edgeScores V c :=
  (dat1 V c).arrAt_eq_of_cover 13 _ (fun t _ => flushed1 V c t) cover1

end Cert.KernelIdeal.Arrays

end
-- ==== Proof.Tail.lean ====
/-
  The host operations both programs apply after the projected node features and the clamped edge scores are known — the
  message passing itself.  The node array is reshaped to [node, head, dim]; each edge gathers the row of its source node (a
  negative index wrapped by the node count, as the lowering prints it), multiplies it by the edge's per-head score broadcast
  over the head's entries, and the products are scatter-added to the edge's destination node; the sum is divided by the
  number of incoming edges (a scatter-add of ones), at least one, and the output bias is added.
  Both programs print exactly these operations, so the proof never opens them: it only needs that the two arrays fed to them
  are equal.
-/
import proofs.«105621_j66271345377495_1_alg».proof.Proof.Gen.KernelIdeal
import Idealize.ShloMosaic.PureOps.Ideal

noncomputable section

namespace Cert.KernelIdeal.Tail

open Cert.KernelIdeal Cert.KernelIdeal.Facts₀ Cert.KernelIdeal.Facts Idealize.ShloMosaic

/-- The message passing, as one function of the projected node array `vh` in its [node, head, dim] layout, the clamped edge
    scores `score`, the edge list `ei` (row 0 the sources, row 1 the destinations) and the output bias `ob`. -/
def tailR (vh : (⟨S50000x8x4, .f32⟩ : BufTy).Contents (Elt Ideal)) (score : (⟨S1600000x8, .f32⟩ : BufTy).Contents (Elt Ideal))
    (ei : (⟨S2x1600000, .i32⟩ : BufTy).Contents (Elt Ideal)) (ob : (⟨S1x8x4, .f32⟩ : BufTy).Contents (Elt Ideal)) : (⟨S50000x8x4, .f32⟩ : BufTy).Contents (Elt Ideal) :=
  let src : (⟨S1600000, .i32⟩ : BufTy).Contents (Elt Ideal) :=
    shapeCast _ (extractStridedSlice S1x1600000 ![0, 0] ei slices_S2x1600000_S1x1600000_0_0) shapeCasts_S1x1600000_S1600000
  let dst : (⟨S1600000, .i32⟩ : BufTy).Contents (Elt Ideal) :=
    shapeCast _ (extractStridedSlice S1x1600000 ![1, 0] ei slices_S2x1600000_S1x1600000_1_0) shapeCasts_S1x1600000_S1600000
  let srcw : (⟨S1600000, .i32⟩ : BufTy).Contents (Elt Ideal) :=
    select (cmpi .slt src (broadcastInDim S1600000 ![] bcast_S_S1600000 (constantI S_ 32 0#32)))
      (addi src (broadcastInDim S1600000 ![] bcast_S_S1600000 (constantI S_ 32 50000#32))) src
  let msg : (⟨S1600000x8x4, .f32⟩ : BufTy).Contents (Elt Ideal) :=
    mulf (F := Ideal) (φ := .f32) (Host.gather gather_S50000x8x4_S1600000x1_S1600000x8x4_12_0_n_n_0_1_184 vh
        (broadcastInDim S1600000x1 ![0] bcast_S1600000_S1600000x1_0 srcw))
      (broadcastInDim S1600000x8x4 ![0, 1, 2] bcast_S1600000x8x1_S1600000x8x4_0_1_2
        (broadcastInDim S1600000x8x1 ![0, 1] bcast_S1600000x8_S1600000x8x1_0_1 score))
  let s : (⟨S50000x8x4, .f32⟩ : BufTy).Contents (Elt Ideal) :=
    Host.scatterAdd (F := Ideal) scatter_S50000x8x4_S1600000x1_S1600000x8x4_12_0_0_1
      (broadcastInDim S50000x8x4 ![] bcast_S_S50000x8x4 (constant (F := Ideal) S_ .f32 0x00000000#32))
      (broadcastInDim S1600000x1 ![0] bcast_S1600000_S1600000x1_0 dst) msg
  let cnt : (⟨S50000, .f32⟩ : BufTy).Contents (Elt Ideal) :=
    Host.scatterAdd (F := Ideal) scatter_S50000_S1600000x1_S1600000_n_0_0_1
      (broadcastInDim S50000 ![] bcast_S_S50000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32))
  let den : (⟨S50000x8x4, .f32⟩ : BufTy).Contents (Elt Ideal) :=
    broadcastInDim S50000x8x4 ![0, 1, 2] bcast_S50000x1x1_S50000x8x4_0_1_2
      (broadcastInDim S50000x1x1 ![0] bcast_S50000_S50000x1x1_0
        (maximumf (F := Ideal) (φ := .f32) cnt (broadcastInDim S50000 ![] bcast_S_S50000 (constant (F := Ideal) S_ .f32 0x3F800000#32))))
  addf (F := Ideal) (φ := .f32) (Host.divf (F := Ideal) s den) (broadcastInDim S50000x8x4 ![0, 1, 2] bcast_S1x8x4_S50000x8x4_0_1_2 ob)

/-- The same from the projected node array in its [node, 32] layout: the reshape first. -/
def tail (vproj : (⟨S50000x32, .f32⟩ : BufTy).Contents (Elt Ideal)) (score : (⟨S1600000x8, .f32⟩ : BufTy).Contents (Elt Ideal))
    (ei : (⟨S2x1600000, .i32⟩ : BufTy).Contents (Elt Ideal)) (ob : (⟨S1x8x4, .f32⟩ : BufTy).Contents (Elt Ideal)) : (⟨S50000x8x4, .f32⟩ : BufTy).Contents (Elt Ideal) :=
  tailR (shapeCast S50000x8x4 vproj shapeCasts_S50000x32_S50000x8x4) score ei ob

end Cert.KernelIdeal.Tail

end
-- ==== Proof.KernelValue.lean ====
/-
  The idealized kernel program's result as ONE function of its arguments.

  Reading the boundaries backwards from the result: the tail's operations are applied to the two regions' output arrays, the
  edge list and the bias; each region's output array is the specification's function of the arrays the region finds; and what
  a region finds are the arguments themselves, the affine vectors through a reshape [32] → [1, 32] that keeps every entry
  (entry `(0, k)` of the reshaped vector is entry `k`).  So the result is the tail of `valueProj` and `scores` of the arguments.
-/
import proofs.«105621_j66271345377495_1_alg».proof.Proof.KernelRun
import proofs.«105621_j66271345377495_1_alg».proof.Proof.KernelArrays
import proofs.«105621_j66271345377495_1_alg».proof.Proof.Tail
import Idealize.ShloMosaic.Lib.StableHlo.Run

set_option maxRecDepth 16384

noncomputable section

namespace Cert.KernelIdeal.KValue

open Cert.KernelIdeal Cert.KernelIdeal.Gen Cert.KernelIdeal.Arrays Cert.KernelIdeal.Tail Cert.EdgeConv
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## What the value-projection region finds -/

theorem V1_main_arg0 (c : Dev nD) : V1 m ρ c main_arg0 = m ((c.tc : Thread nD τ).loc main_arg0) := by
  show StableHlo.after hostOps0 (W0 m ρ c) (Proc.devRef .tc main_arg0) = _
  simp only [hostOps0]
  after_results <;> rfl

theorem V1_main_arg3 (c : Dev nD) : V1 m ρ c main_arg3 = m ((c.tc : Thread nD τ).loc main_arg3) := by
  show StableHlo.after hostOps0 (W0 m ρ c) (Proc.devRef .tc main_arg3) = _
  simp only [hostOps0]
  after_results <;> rfl

theorem V1_main_v0 (c : Dev nD) : V1 m ρ c main_v0 = shapeCast _ (m ((c.tc : Thread nD τ).loc main_arg4)) shapeCasts_S32_S1x32 := by
  show StableHlo.after hostOps0 (W0 m ρ c) (Proc.devRef .tc main_v0) = _
  simp only [hostOps0]
  after_results <;> rfl

/-! ## What the edge region finds -/

theorem V3_main_arg1 (c : Dev nD) : V3 m ρ c main_arg1 = m ((c.tc : Thread nD τ).loc main_arg1) := by
  show StableHlo.after hostOps1 (W2 m ρ c) (Proc.devRef .tc main_arg1) = _
  simp only [hostOps1]
  after_results
  rw [W2_of_ne m ρ c main_arg1 (by decide)]
  show StableHlo.after hostOps0 (W0 m ρ c) (Proc.devRef .tc main_arg1) = _
  simp only [hostOps0]
  after_results <;> rfl

theorem V3_main_arg7 (c : Dev nD) : V3 m ρ c main_arg7 = m ((c.tc : Thread nD τ).loc main_arg7) := by
  show StableHlo.after hostOps1 (W2 m ρ c) (Proc.devRef .tc main_arg7) = _
  simp only [hostOps1]
  after_results
  rw [W2_of_ne m ρ c main_arg7 (by decide)]
  show StableHlo.after hostOps0 (W0 m ρ c) (Proc.devRef .tc main_arg7) = _
  simp only [hostOps0]
  after_results <;> rfl

theorem V3_main_arg11 (c : Dev nD) : V3 m ρ c main_arg11 = m ((c.tc : Thread nD τ).loc main_arg11) := by
  show StableHlo.after hostOps1 (W2 m ρ c) (Proc.devRef .tc main_arg11) = _
  simp only [hostOps1]
  after_results
  rw [W2_of_ne m ρ c main_arg11 (by decide)]
  show StableHlo.after hostOps0 (W0 m ρ c) (Proc.devRef .tc main_arg11) = _
  simp only [hostOps0]
  after_results <;> rfl

theorem V3_main_arg15 (c : Dev nD) : V3 m ρ c main_arg15 = m ((c.tc : Thread nD τ).loc main_arg15) := by
  show StableHlo.after hostOps1 (W2 m ρ c) (Proc.devRef .tc main_arg15) = _
  simp only [hostOps1]
  after_results
  rw [W2_of_ne m ρ c main_arg15 (by decide)]
  show StableHlo.after hostOps0 (W0 m ρ c) (Proc.devRef .tc main_arg15) = _
  simp only [hostOps0]
  after_results <;> rfl

theorem V3_main_v3 (c : Dev nD) : V3 m ρ c main_v3 = shapeCast _ (m ((c.tc : Thread nD τ).loc main_arg5)) shapeCasts_S32_S1x32 := by
  show StableHlo.after hostOps1 (W2 m ρ c) (Proc.devRef .tc main_v3) = _
  simp only [hostOps1]
  after_results
  rw [W2_of_ne m ρ c main_arg5 (by decide)]
  show shapeCast _ (StableHlo.after hostOps0 (W0 m ρ c) (Proc.devRef .tc main_arg5)) shapeCasts_S32_S1x32 = _
  simp only [hostOps0]
  after_results <;> rfl

theorem V3_main_v4 (c : Dev nD) : V3 m ρ c main_v4 = shapeCast _ (m ((c.tc : Thread nD τ).loc main_arg6)) shapeCasts_S32_S1x32 := by
  show StableHlo.after hostOps1 (W2 m ρ c) (Proc.devRef .tc main_v4) = _
  simp only [hostOps1]
  after_results
  rw [W2_of_ne m ρ c main_arg6 (by decide)]
  show shapeCast _ (StableHlo.after hostOps0 (W0 m ρ c) (Proc.devRef .tc main_arg6)) shapeCasts_S32_S1x32 = _
  simp only [hostOps0]
  after_results <;> rfl

theorem V3_main_v5 (c : Dev nD) : V3 m ρ c main_v5 = shapeCast _ (m ((c.tc : Thread nD τ).loc main_arg8)) shapeCasts_S32_S1x32 := by
  show StableHlo.after hostOps1 (W2 m ρ c) (Proc.devRef .tc main_v5) = _
  simp only [hostOps1]
  after_results
  rw [W2_of_ne m ρ c main_arg8 (by decide)]
  show shapeCast _ (StableHlo.after hostOps0 (W0 m ρ c) (Proc.devRef .tc main_arg8)) shapeCasts_S32_S1x32 = _
  simp only [hostOps0]
  after_results <;> rfl

theorem V3_main_v6 (c : Dev nD) : V3 m ρ c main_v6 = shapeCast _ (m ((c.tc : Thread nD τ).loc main_arg9)) shapeCasts_S32_S1x32 := by
  show StableHlo.after hostOps1 (W2 m ρ c) (Proc.devRef .tc main_v6) = _
  simp only [hostOps1]
  after_results
  rw [W2_of_ne m ρ c main_arg9 (by decide)]
  show shapeCast _ (StableHlo.after hostOps0 (W0 m ρ c) (Proc.devRef .tc main_arg9)) shapeCasts_S32_S1x32 = _
  simp only [hostOps0]
  after_results <;> rfl

theorem V3_main_v7 (c : Dev nD) : V3 m ρ c main_v7 = shapeCast _ (m ((c.tc : Thread nD τ).loc main_arg10)) shapeCasts_S32_S1x32 := by
  show StableHlo.after hostOps1 (W2 m ρ c) (Proc.devRef .tc main_v7) = _
  simp only [hostOps1]
  after_results
  rw [W2_of_ne m ρ c main_arg10 (by decide)]
  show shapeCast _ (StableHlo.after hostOps0 (W0 m ρ c) (Proc.devRef .tc main_arg10)) shapeCasts_S32_S1x32 = _
  simp only [hostOps0]
  after_results <;> rfl

theorem V3_main_v8 (c : Dev nD) : V3 m ρ c main_v8 = shapeCast _ (m ((c.tc : Thread nD τ).loc main_arg12)) shapeCasts_S32_S1x32 := by
  show StableHlo.after hostOps1 (W2 m ρ c) (Proc.devRef .tc main_v8) = _
  simp only [hostOps1]
  after_results
  rw [W2_of_ne m ρ c main_arg12 (by decide)]
  show shapeCast _ (StableHlo.after hostOps0 (W0 m ρ c) (Proc.devRef .tc main_arg12)) shapeCasts_S32_S1x32 = _
  simp only [hostOps0]
  after_results <;> rfl

theorem V3_main_v9 (c : Dev nD) : V3 m ρ c main_v9 = shapeCast _ (m ((c.tc : Thread nD τ).loc main_arg13)) shapeCasts_S32_S1x32 := by
  show StableHlo.after hostOps1 (W2 m ρ c) (Proc.devRef .tc main_v9) = _
  simp only [hostOps1]
  after_results
  rw [W2_of_ne m ρ c main_arg13 (by decide)]
  show shapeCast _ (StableHlo.after hostOps0 (W0 m ρ c) (Proc.devRef .tc main_arg13)) shapeCasts_S32_S1x32 = _
  simp only [hostOps0]
  after_results <;> rfl

theorem V3_main_v10 (c : Dev nD) : V3 m ρ c main_v10 = shapeCast _ (m ((c.tc : Thread nD τ).loc main_arg14)) shapeCasts_S32_S1x32 := by
  show StableHlo.after hostOps1 (W2 m ρ c) (Proc.devRef .tc main_v10) = _
  simp only [hostOps1]
  after_results
  rw [W2_of_ne m ρ c main_arg14 (by decide)]
  show shapeCast _ (StableHlo.after hostOps0 (W0 m ρ c) (Proc.devRef .tc main_arg14)) shapeCasts_S32_S1x32 = _
  simp only [hostOps0]
  after_results <;> rfl

theorem V3_main_v11 (c : Dev nD) : V3 m ρ c main_v11 = shapeCast _ (m ((c.tc : Thread nD τ).loc main_arg16)) shapeCasts_S8_S1x8 := by
  show StableHlo.after hostOps1 (W2 m ρ c) (Proc.devRef .tc main_v11) = _
  simp only [hostOps1]
  after_results
  rw [W2_of_ne m ρ c main_arg16 (by decide)]
  show shapeCast _ (StableHlo.after hostOps0 (W0 m ρ c) (Proc.devRef .tc main_arg16)) shapeCasts_S8_S1x8 = _
  simp only [hostOps0]
  after_results <;> rfl

/-! ## What the tail finds -/

theorem W4_main_arg2 (c : Dev nD) : W4 m ρ c (Proc.devRef .tc main_arg2) = m ((c.tc : Thread nD τ).loc main_arg2) := by
  rw [W4_of_ne m ρ c main_arg2 (by decide)]
  show StableHlo.after hostOps1 (W2 m ρ c) (Proc.devRef .tc main_arg2) = _
  simp only [hostOps1]
  after_results
  rw [W2_of_ne m ρ c main_arg2 (by decide)]
  show StableHlo.after hostOps0 (W0 m ρ c) (Proc.devRef .tc main_arg2) = _
  simp only [hostOps0]
  after_results <;> rfl

theorem W4_main_arg17 (c : Dev nD) : W4 m ρ c (Proc.devRef .tc main_arg17) = m ((c.tc : Thread nD τ).loc main_arg17) := by
  rw [W4_of_ne m ρ c main_arg17 (by decide)]
  show StableHlo.after hostOps1 (W2 m ρ c) (Proc.devRef .tc main_arg17) = _
  simp only [hostOps1]
  after_results
  rw [W2_of_ne m ρ c main_arg17 (by decide)]
  show StableHlo.after hostOps0 (W0 m ρ c) (Proc.devRef .tc main_arg17) = _
  simp only [hostOps0]
  after_results <;> rfl

/-- A [32] vector reshaped to [1, 32] and read along its one row is the vector. -/
theorem row32 (x : (⟨S32, .f32⟩ : BufTy).Contents (Elt Ideal)) :
    (fun i : S32.Idx => shapeCast S1x32 x shapeCasts_S32_S1x32 (ix2 (0 : Fin 1) (i 0))) = x :=
  funext fun i => (shapeCast_a_1a_apply x shapeCasts_S32_S1x32 0 (i 0)).trans (congrArg x (eq_ix1 i).symm)
/-- A [8] vector reshaped to [1, 8] and read along its one row is the vector. -/
theorem row8 (x : (⟨S8, .f32⟩ : BufTy).Contents (Elt Ideal)) :
    (fun i : S8.Idx => shapeCast S1x8 x shapeCasts_S8_S1x8 (ix2 (0 : Fin 1) (i 0))) = x :=
  funext fun i => (shapeCast_a_1a_apply x shapeCasts_S8_S1x8 0 (i 0)).trans (congrArg x (eq_ix1 i).symm)

/-- The projected node array, as the tail finds it. -/
theorem node_eq (c : Dev nD) :
    (dat0 (V1 m ρ) c).arrAt 3 cfg0.N = valueProj (m ((c.tc : Thread nD τ).loc main_arg0)) (m ((c.tc : Thread nD τ).loc main_arg3)) (m ((c.tc : Thread nD τ).loc main_arg4)) := by
  rw [nodeArray (V1 m ρ) c, V1_main_arg0, V1_main_arg3, V1_main_v0, row32]

/-- The score array, as the tail finds it. -/
theorem score_eq (c : Dev nD) :
    (dat1 (V3 m ρ) c).arrAt 13 cfg1.N = scores (m ((c.tc : Thread nD τ).loc main_arg1)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      (m ((c.tc : Thread nD τ).loc main_arg13)) (m ((c.tc : Thread nD τ).loc main_arg14)) (m ((c.tc : Thread nD τ).loc main_arg15)) (m ((c.tc : Thread nD τ).loc main_arg16)) := by
  rw [scoreArray (V3 m ρ) c]
  unfold edgeScores
  rw [V3_main_arg1, V3_main_arg7, V3_main_arg11, V3_main_arg15, V3_main_v3, V3_main_v4, V3_main_v5, V3_main_v6, V3_main_v7, V3_main_v8, V3_main_v9, V3_main_v10, V3_main_v11]
  simp only [row32, row8]

set_option maxHeartbeats 8000000 in
/-- The host tail read back over ANY buffer contents `Wv` at its entry: the message passing of the four buffers it reads. -/
theorem tail_read (Wv : Valuation τ sig (Elt Ideal)) :
    StableHlo.after hostOps2 Wv (Proc.devRef .tc main_v40)
      = tailR (Wv (Proc.devRef .tc main_v2)) (Wv (Proc.devRef .tc main_v12)) (Wv (Proc.devRef .tc main_arg2)) (Wv (Proc.devRef .tc main_arg17)) := by
  after_results_simp <;> first | rfl | (unfold tailR; rfl)

/-- The reshaped projected node array, as the tail finds it. -/
theorem W4_main_v2 (c : Dev nD) : W4 m ρ c (Proc.devRef .tc main_v2)
    = shapeCast S50000x8x4 (valueProj (m ((c.tc : Thread nD τ).loc main_arg0)) (m ((c.tc : Thread nD τ).loc main_arg3)) (m ((c.tc : Thread nD τ).loc main_arg4))) shapeCasts_S50000x32_S50000x8x4 := by
  rw [W4_of_ne m ρ c main_v2 (by decide)]
  show StableHlo.after hostOps1 (W2 m ρ c) (Proc.devRef .tc main_v2) = _
  simp only [hostOps1]
  after_results
  exact congrArg (fun x => shapeCast S50000x8x4 x shapeCasts_S50000x32_S50000x8x4) ((W2_arr m ρ c 3).trans (node_eq m ρ c))

/-- The score array, as the tail finds it. -/
theorem W4_main_v12 (c : Dev nD) : W4 m ρ c (Proc.devRef .tc main_v12)
    = scores (m ((c.tc : Thread nD τ).loc main_arg1)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      (m ((c.tc : Thread nD τ).loc main_arg13)) (m ((c.tc : Thread nD τ).loc main_arg14)) (m ((c.tc : Thread nD τ).loc main_arg15)) (m ((c.tc : Thread nD τ).loc main_arg16)) :=
  (W4_arr m ρ c 13).trans (score_eq m ρ c)

/-- The result buffer at the last boundary: the tail of the two specification arrays of the arguments. -/
theorem result_eq (c : Dev nD) :
    W5 m ρ c (Proc.devRef .tc main_v40) = tail (valueProj (m ((c.tc : Thread nD τ).loc main_arg0)) (m ((c.tc : Thread nD τ).loc main_arg3)) (m ((c.tc : Thread nD τ).loc main_arg4)))
      (scores (m ((c.tc : Thread nD τ).loc main_arg1)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15)) (m ((c.tc : Thread nD τ).loc main_arg16)))
      (m ((c.tc : Thread nD τ).loc main_arg2)) (m ((c.tc : Thread nD τ).loc main_arg17)) := by
  show StableHlo.after hostOps2 (W4 m ρ c) (Proc.devRef .tc main_v40) = _
  rw [tail_read, W4_main_v2, W4_main_v12, W4_main_arg2, W4_main_arg17]
  rfl

/-- Every weakly fair execution of the idealized kernel program terminates without a fault, with the result at the tail of the
    two specification arrays and the arguments as launched. -/
theorem run : θ_run defs (onTc (τ := τ) (main (F := Ideal))) ⟨m, fun _ => 0, ρ⟩ (fun r => ∀ c : Dev nD,
      r.2.mem ((c.tc : Thread nD τ).loc main_v40) = tail (valueProj (m ((c.tc : Thread nD τ).loc main_arg0)) (m ((c.tc : Thread nD τ).loc main_arg3)) (m ((c.tc : Thread nD τ).loc main_arg4)))
        (scores (m ((c.tc : Thread nD τ).loc main_arg1)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15)) (m ((c.tc : Thread nD τ).loc main_arg16)))
        (m ((c.tc : Thread nD τ).loc main_arg2)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (result_eq m ρ c), (h c).2⟩) (Cert.KernelIdeal.GenP.run_result (F := Ideal) m ρ)

end Cert.KernelIdeal.KValue

end
-- ==== Proof.RefValue.lean ====
/-
  The reference program's two stages before the tail are the specification's functions.

  Each host operation is read at an index `(r, j)`: a bias row broadcast over the rows reads the bias at `j`; a matrix
  product reads the sum over `k` of the left operand at `(r, k)` times the weight at `(k, j)`; sums, products, maximum and
  minimum act entry by entry.  Stage by stage, row `r` of each intermediate array is the specification's row function of
  row `r` of the edge features — so the clamped score array is `scores` and the projected node array is `valueProj`.
-/
import proofs.«105621_j66271345377495_1_alg».proof.Proof.Gen.ReferenceIdeal.Read
import proofs.«105621_j66271345377495_1_alg».proof.Proof.Spec

noncomputable section

namespace Cert.ReferenceIdeal.RefValue

open Cert.ReferenceIdeal Cert.ReferenceIdeal.Read Cert.EdgeConv Idealize.ShloMosaic Idealize.ShloMosaic.ValueIdx

/-! ## Bias rows broadcast over the rows, read at an index -/

theorem bc2 (x4 : (⟨S32, .f32⟩ : BufTy).Contents (Elt Ideal)) (r : Fin 50000) (k : Fin 32) :
    val_main_v2 (F := Ideal) x4 (ix2 r k) = x4 (ix1 k) := by
  rw [val_main_v2_apply, val_main_v1_apply]
  exact congrArg x4 (funext fun a => Fin.ext (by match a with | ⟨0, _⟩ => rfl))

theorem bc6 (x5 : (⟨S32, .f32⟩ : BufTy).Contents (Elt Ideal)) (r : Fin 1600000) (k : Fin 32) :
    val_main_v6 (F := Ideal) x5 (ix2 r k) = x5 (ix1 k) := by
  rw [val_main_v6_apply, val_main_v5_apply]
  exact congrArg x5 (funext fun a => Fin.ext (by match a with | ⟨0, _⟩ => rfl))

theorem bc9 (x6 : (⟨S32, .f32⟩ : BufTy).Contents (Elt Ideal)) (r : Fin 1600000) (k : Fin 32) :
    val_main_v9 (F := Ideal) x6 (ix2 r k) = x6 (ix1 k) := by
  rw [val_main_v9_apply, val_main_v8_apply]
  exact congrArg x6 (funext fun a => Fin.ext (by match a with | ⟨0, _⟩ => rfl))

theorem bc13 (x8 : (⟨S32, .f32⟩ : BufTy).Contents (Elt Ideal)) (r : Fin 1600000) (k : Fin 32) :
    val_main_v13 (F := Ideal) x8 (ix2 r k) = x8 (ix1 k) := by
  rw [val_main_v13_apply, val_main_v12_apply]
  exact congrArg x8 (funext fun a => Fin.ext (by match a with | ⟨0, _⟩ => rfl))

theorem bc16 (x9 : (⟨S32, .f32⟩ : BufTy).Contents (Elt Ideal)) (r : Fin 1600000) (k : Fin 32) :
    val_main_v16 (F := Ideal) x9 (ix2 r k) = x9 (ix1 k) := by
  rw [val_main_v16_apply, val_main_v15_apply]
  exact congrArg x9 (funext fun a => Fin.ext (by match a with | ⟨0, _⟩ => rfl))

theorem bc19 (x10 : (⟨S32, .f32⟩ : BufTy).Contents (Elt Ideal)) (r : Fin 1600000) (k : Fin 32) :
    val_main_v19 (F := Ideal) x10 (ix2 r k) = x10 (ix1 k) := by
  rw [val_main_v19_apply, val_main_v18_apply]
  exact congrArg x10 (funext fun a => Fin.ext (by match a with | ⟨0, _⟩ => rfl))

theorem bc23 (x12 : (⟨S32, .f32⟩ : BufTy).Contents (Elt Ideal)) (r : Fin 1600000) (k : Fin 32) :
    val_main_v23 (F := Ideal) x12 (ix2 r k) = x12 (ix1 k) := by
  rw [val_main_v23_apply, val_main_v22_apply]
  exact congrArg x12 (funext fun a => Fin.ext (by match a with | ⟨0, _⟩ => rfl))

theorem bc27 (x13 : (⟨S32, .f32⟩ : BufTy).Contents (Elt Ideal)) (r : Fin 1600000) (k : Fin 32) :
    val_main_v27 (F := Ideal) x13 (ix2 r k) = x13 (ix1 k) := by
  rw [val_main_v27_apply, val_main_v26_apply]
  exact congrArg x13 (funext fun a => Fin.ext (by match a with | ⟨0, _⟩ => rfl))

theorem bc30 (x14 : (⟨S32, .f32⟩ : BufTy).Contents (Elt Ideal)) (r : Fin 1600000) (k : Fin 32) :
    val_main_v30 (F := Ideal) x14 (ix2 r k) = x14 (ix1 k) := by
  rw [val_main_v30_apply, val_main_v29_apply]
  exact congrArg x14 (funext fun a => Fin.ext (by match a with | ⟨0, _⟩ => rfl))

theorem bc34 (x16 : (⟨S8, .f32⟩ : BufTy).Contents (Elt Ideal)) (r : Fin 1600000) (k : Fin 8) :
    val_main_v34 (F := Ideal) x16 (ix2 r k) = x16 (ix1 k) := by
  rw [val_main_v34_apply, val_main_v33_apply]
  exact congrArg x16 (funext fun a => Fin.ext (by match a with | ⟨0, _⟩ => rfl))

/-! ## The matrix products, read at an index -/

theorem dot0 (x0 : (⟨S50000x32, .f32⟩ : BufTy).Contents (Elt Ideal)) (x3 : (⟨S32x32, .f32⟩ : BufTy).Contents (Elt Ideal)) (r : Fin 50000) (j : Fin 32) :
    val_main_v0 (F := Ideal) x0 x3 (ix2 r j) = ∑ k : Fin 32, x0 (ix2 r k) * x3 (ix2 k j) := by
  rw [val_main_v0_apply]
  refine Finset.sum_congr rfl fun k _ => ?_
  have el : lidx_main_v0 (ix2 r j) k = ix2 r k := (funext fun a => Fin.ext (by match a with | ⟨0, _⟩ => rfl | ⟨1, _⟩ => rfl))
  have er : ridx_main_v0 (ix2 r j) k = ix2 k j := (funext fun a => Fin.ext (by match a with | ⟨0, _⟩ => rfl | ⟨1, _⟩ => rfl))
  rw [el, er]

theorem dot11 (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (r : Fin 1600000) (j : Fin 32) :
    val_main_v11 (F := Ideal) x1 x5 x6 x7 (ix2 r j) = ∑ k : Fin 32, val_main_v10 (F := Ideal) x1 x5 x6 (ix2 r k) * x7 (ix2 k j) := by
  rw [val_main_v11_apply]
  refine Finset.sum_congr rfl fun k _ => ?_
  have el : lidx_main_v11 (ix2 r j) k = ix2 r k := (funext fun a => Fin.ext (by match a with | ⟨0, _⟩ => rfl | ⟨1, _⟩ => rfl))
  have er : ridx_main_v11 (ix2 r j) k = ix2 k j := (funext fun a => Fin.ext (by match a with | ⟨0, _⟩ => rfl | ⟨1, _⟩ => rfl))
  rw [el, er]

theorem dot21 (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (x11 : (⟨S32x32, .f32⟩ : BufTy).Contents (Elt Ideal)) (r : Fin 1600000) (j : Fin 32) :
    val_main_v21 (F := Ideal) x1 x5 x6 x7 x8 x9 x10 x11 (ix2 r j) = ∑ k : Fin 32, val_main_v20 (F := Ideal) x1 x5 x6 x7 x8 x9 x10 (ix2 r k) * x11 (ix2 k j) := by
  rw [val_main_v21_apply]
  refine Finset.sum_congr rfl fun k _ => ?_
  have el : lidx_main_v21 (ix2 r j) k = ix2 r k := (funext fun a => Fin.ext (by match a with | ⟨0, _⟩ => rfl | ⟨1, _⟩ => rfl))
  have er : ridx_main_v21 (ix2 r j) k = ix2 k j := (funext fun a => Fin.ext (by match a with | ⟨0, _⟩ => rfl | ⟨1, _⟩ => rfl))
  rw [el, er]

theorem dot32 (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (x11 : (⟨S32x32, .f32⟩ : BufTy).Contents (Elt Ideal)) (x12 : (⟨S32, .f32⟩ : BufTy).Contents (Elt Ideal)) (x13 : (⟨S32, .f32⟩ : BufTy).Contents (Elt Ideal)) (x14 : (⟨S32, .f32⟩ : BufTy).Contents (Elt Ideal)) (x15 : (⟨S32x8, .f32⟩ : BufTy).Contents (Elt Ideal)) (r : Fin 1600000) (j : Fin 8) :
    val_main_v32 (F := Ideal) x1 x5 x6 x7 x8 x9 x10 x11 x12 x13 x14 x15 (ix2 r j) = ∑ k : Fin 32, val_main_v31 (F := Ideal) x1 x5 x6 x7 x8 x9 x10 x11 x12 x13 x14 (ix2 r k) * x15 (ix2 k j) := by
  rw [val_main_v32_apply]
  refine Finset.sum_congr rfl fun k _ => ?_
  have el : lidx_main_v32 (ix2 r j) k = ix2 r k := (funext fun a => Fin.ext (by match a with | ⟨0, _⟩ => rfl | ⟨1, _⟩ => rfl))
  have er : ridx_main_v32 (ix2 r j) k = ix2 k j := (funext fun a => Fin.ext (by match a with | ⟨0, _⟩ => rfl | ⟨1, _⟩ => rfl))
  rw [el, er]

/-! ## The value projection -/

/-- The reference's projected node array is `x · WV + bV`. -/
theorem ref_valueProj (x0 : (⟨S50000x32, .f32⟩ : BufTy).Contents (Elt Ideal)) (x3 : (⟨S32x32, .f32⟩ : BufTy).Contents (Elt Ideal)) (x4 : (⟨S32, .f32⟩ : BufTy).Contents (Elt Ideal)) :
    val_main_v3 (F := Ideal) x0 x3 x4 = valueProj x0 x3 x4 := by
  funext i
  obtain ⟨r, j, rfl⟩ : ∃ (r : Fin 50000) (j : Fin 32), i = ix2 r j := ⟨i 0, i 1, eq_ix2 i⟩
  show val_main_v0 (F := Ideal) x0 x3 (ix2 r j) + val_main_v2 (F := Ideal) x4 (ix2 r j) = _
  rw [dot0, bc2]
  rfl

/-! ## The edge score, stage by stage along a row -/

/-- After the first scale-and-shift. -/
theorem st10 (x1 : (⟨S1600000x32, .f32⟩ : BufTy).Contents (Elt Ideal)) (x5 : (⟨S32, .f32⟩ : BufTy).Contents (Elt Ideal)) (x6 : (⟨S32, .f32⟩ : BufTy).Contents (Elt Ideal)) (r : Fin 1600000) (k : Fin 32) :
    val_main_v10 (F := Ideal) x1 x5 x6 (ix2 r k) = (aff (fun k => x1 (ix2 r k)) (fun k => x5 (ix1 k)) (fun k => x6 (ix1 k))) k := by
  show x1 (ix2 r k) * val_main_v6 (F := Ideal) x5 (ix2 r k) + val_main_v9 (F := Ideal) x6 (ix2 r k) = _
  rw [bc6, bc9]
  rfl

/-- After the first linear layer. -/
theorem st14 (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (r : Fin 1600000) (j : Fin 32) :
    val_main_v14 (F := Ideal) x1 x5 x6 x7 x8 (ix2 r j) = (lin (aff (fun k => x1 (ix2 r k)) (fun k => x5 (ix1 k)) (fun k => x6 (ix1 k))) x7 (fun k => x8 (ix1 k))) j := by
  show val_main_v11 (F := Ideal) x1 x5 x6 x7 (ix2 r j) + val_main_v13 (F := Ideal) x8 (ix2 r j) = _
  rw [dot11, bc13]
  simp only [st10]
  rfl

/-- After the second scale-and-shift. -/
theorem st20 (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (r : Fin 1600000) (k : Fin 32) :
    val_main_v20 (F := Ideal) x1 x5 x6 x7 x8 x9 x10 (ix2 r k) = (aff (lin (aff (fun k => x1 (ix2 r k)) (fun k => x5 (ix1 k)) (fun k => x6 (ix1 k))) x7 (fun k => x8 (ix1 k))) (fun k => x9 (ix1 k)) (fun k => x10 (ix1 k))) k := by
  show val_main_v14 (F := Ideal) x1 x5 x6 x7 x8 (ix2 r k) * val_main_v16 (F := Ideal) x9 (ix2 r k) + val_main_v19 (F := Ideal) x10 (ix2 r k) = _
  rw [st14, bc16, bc19]
  rfl

/-- After the second linear layer and the residual sum. -/
theorem st25 (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (x11 : (⟨S32x32, .f32⟩ : BufTy).Contents (Elt Ideal)) (x12 : (⟨S32, .f32⟩ : BufTy).Contents (Elt Ideal)) (r : Fin 1600000) (j : Fin 32) :
    val_main_v25 (F := Ideal) x1 x5 x6 x7 x8 x9 x10 x11 x12 (ix2 r j) = (hidden (fun k => x1 (ix2 r k)) (fun k => x5 (ix1 k)) (fun k => x6 (ix1 k)) x7 (fun k => x8 (ix1 k)) (fun k => x9 (ix1 k)) (fun k => x10 (ix1 k)) x11 (fun k => x12 (ix1 k))) j := by
  show x1 (ix2 r j) + (val_main_v21 (F := Ideal) x1 x5 x6 x7 x8 x9 x10 x11 (ix2 r j) + val_main_v23 (F := Ideal) x12 (ix2 r j)) = _
  rw [dot21, bc23]
  simp only [st20]
  rfl

/-- After the third scale-and-shift. -/
theorem st31 (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (x11 : (⟨S32x32, .f32⟩ : BufTy).Contents (Elt Ideal)) (x12 : (⟨S32, .f32⟩ : BufTy).Contents (Elt Ideal)) (x13 : (⟨S32, .f32⟩ : BufTy).Contents (Elt Ideal)) (x14 : (⟨S32, .f32⟩ : BufTy).Contents (Elt Ideal)) (r : Fin 1600000) (k : Fin 32) :
    val_main_v31 (F := Ideal) x1 x5 x6 x7 x8 x9 x10 x11 x12 x13 x14 (ix2 r k) = (aff (hidden (fun k => x1 (ix2 r k)) (fun k => x5 (ix1 k)) (fun k => x6 (ix1 k)) x7 (fun k => x8 (ix1 k)) (fun k => x9 (ix1 k)) (fun k => x10 (ix1 k)) x11 (fun k => x12 (ix1 k))) (fun k => x13 (ix1 k)) (fun k => x14 (ix1 k))) k := by
  show val_main_v25 (F := Ideal) x1 x5 x6 x7 x8 x9 x10 x11 x12 (ix2 r k) * val_main_v27 (F := Ideal) x13 (ix2 r k) + val_main_v30 (F := Ideal) x14 (ix2 r k) = _
  rw [st25, bc27, bc30]
  rfl

/-- The clamp's two bounds, broadcast from scalars. -/
theorem lo_eq (i : S1600000x8.Idx) : val_main_call0_v1 (F := Ideal) i = lo := by
  rw [val_main_call0_v1_apply]; rfl
theorem hi_eq (i : S1600000x8.Idx) : val_main_call0_v4 (F := Ideal) i = hi := by
  rw [val_main_call0_v4_apply]; rfl

/-- The reference's clamped score array is `scores`. -/
theorem ref_scores (x1 : (⟨S1600000x32, .f32⟩ : BufTy).Contents (Elt Ideal)) (x5 : (⟨S32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (x11 : (⟨S32x32, .f32⟩ : BufTy).Contents (Elt Ideal)) (x12 : (⟨S32, .f32⟩ : BufTy).Contents (Elt Ideal)) (x13 : (⟨S32, .f32⟩ : BufTy).Contents (Elt Ideal)) (x14 : (⟨S32, .f32⟩ : BufTy).Contents (Elt Ideal)) (x15 : (⟨S32x8, .f32⟩ : BufTy).Contents (Elt Ideal)) (x16 : (⟨S8, .f32⟩ : BufTy).Contents (Elt Ideal)) :
    val_main_v36 (F := Ideal) x1 x5 x6 x7 x8 x9 x10 x11 x12 x13 x14 x15 x16 = scores x1 x5 x6 x7 x8 x9 x10 x11 x12 x13 x14 x15 x16 := by
  funext i
  obtain ⟨r, q, rfl⟩ : ∃ (r : Fin 1600000) (q : Fin 8), i = ix2 r q := ⟨i 0, i 1, eq_ix2 i⟩
  show min (val_main_call0_v4 (F := Ideal) (ix2 r q)) (max (val_main_call0_v1 (F := Ideal) (ix2 r q))
    (val_main_v32 (F := Ideal) x1 x5 x6 x7 x8 x9 x10 x11 x12 x13 x14 x15 (ix2 r q) + val_main_v34 (F := Ideal) x16 (ix2 r q))) = _
  rw [hi_eq, lo_eq, dot32, bc34]
  simp only [st31]
  rfl

end Cert.ReferenceIdeal.RefValue

end
-- ==== Proof.lean ====
/-
  The certificate: the Pallas message-passing kernel program against its jnp reference, over the extended reals.

  Both programs compute, for node features `x` and edge features `e`, the projected node array `x · WV + bV` and the
  per-edge, per-head score `clamp(((e + L2(A2(L1(A1(e))))) · g3 + a3) · Wf + bf, -5, 5)` (`A` a scale-and-shift, `L` a linear
  layer), and then the same message passing: gather the source node's row, multiply by the score, scatter-add to the
  destination node, divide by the in-degree (at least one), add the output bias.
  The kernel program computes the two arrays in two blocked regions (rows of 5000 nodes, rows of 20000 edges) with its
  matrix products on bf16 casts into a zero accumulator; the reference computes them as whole-array host operations.  On the
  extended reals a change of float format is the identity and both matrix products are the same sum over the contracted
  index, in the same order, so the two arrays are equal index by index with no algebraic law needed — no distributivity, no
  cancelling —, and the precondition (finite inputs) is not used.  The message passing is the same function on both sides and
  is never opened.
  The ideal pass rewrote nothing, so the kernel's idealization is its own text and that conjunct is trivial; the two kernel
  frames are the generated ones, and the reference's frame is its generated run with the result dropped.
-/
import proofs.«105621_j66271345377495_1_alg».proof.Defs
import proofs.«105621_j66271345377495_1_alg».proof.Proof.Gen.Kernel
import proofs.«105621_j66271345377495_1_alg».proof.Proof.Gen.Kernel.Frame
import proofs.«105621_j66271345377495_1_alg».proof.Proof.Gen.KernelIdeal
import proofs.«105621_j66271345377495_1_alg».proof.Proof.Gen.KernelIdeal.Frame
import proofs.«105621_j66271345377495_1_alg».proof.Proof.Gen.ReferenceIdeal
import proofs.«105621_j66271345377495_1_alg».proof.Proof.Gen.ReferenceIdeal.Run
import proofs.«105621_j66271345377495_1_alg».proof.Proof.Gen.ReferenceIdeal.Read
import proofs.«105621_j66271345377495_1_alg».proof.Proof.Gen.Pre_finite_inputs
import proofs.«105621_j66271345377495_1_alg».proof.Proof.KernelValue
import proofs.«105621_j66271345377495_1_alg».proof.Proof.RefValue
import Idealize.ShloMosaic.Adequacy
import Idealize.ShloMosaic.Init

set_option maxRecDepth 16384

noncomputable section

namespace Cert.Proof

open Idealize.ShloMosaic Idealize.SL.Sem Cert.EdgeConv Cert.KernelIdeal.Tail

/-- The reference's result is the message passing of its two arrays: its printed operations after the projected node
    array and the clamped scores are, one for one, the tail's. -/
theorem ref_tail (x0 : (⟨Cert.ReferenceIdeal.S50000x32, .f32⟩ : BufTy).Contents (Elt Ideal)) (x1 : (⟨Cert.ReferenceIdeal.S1600000x32, .f32⟩ : BufTy).Contents (Elt Ideal))
    (x2 : (⟨Cert.ReferenceIdeal.S2x1600000, .i32⟩ : BufTy).Contents (Elt Ideal)) (x3 : (⟨Cert.ReferenceIdeal.S32x32, .f32⟩ : BufTy).Contents (Elt Ideal))
    (x4 x5 x6 : (⟨Cert.ReferenceIdeal.S32, .f32⟩ : BufTy).Contents (Elt Ideal)) (x7 : (⟨Cert.ReferenceIdeal.S32x32, .f32⟩ : BufTy).Contents (Elt Ideal))
    (x8 x9 x10 : (⟨Cert.ReferenceIdeal.S32, .f32⟩ : BufTy).Contents (Elt Ideal)) (x11 : (⟨Cert.ReferenceIdeal.S32x32, .f32⟩ : BufTy).Contents (Elt Ideal))
    (x12 x13 x14 : (⟨Cert.ReferenceIdeal.S32, .f32⟩ : BufTy).Contents (Elt Ideal)) (x15 : (⟨Cert.ReferenceIdeal.S32x8, .f32⟩ : BufTy).Contents (Elt Ideal))
    (x16 : (⟨Cert.ReferenceIdeal.S8, .f32⟩ : BufTy).Contents (Elt Ideal)) (x17 : (⟨Cert.ReferenceIdeal.S1x8x4, .f32⟩ : BufTy).Contents (Elt Ideal)) :
    Cert.ReferenceIdeal.Read.val_main_v64 (F := Ideal) x0 x1 x2 x3 x4 x5 x6 x7 x8 x9 x10 x11 x12 x13 x14 x15 x16 x17
      = tail (Cert.ReferenceIdeal.Read.val_main_v3 (F := Ideal) x0 x3 x4)
          (Cert.ReferenceIdeal.Read.val_main_v36 (F := Ideal) x1 x5 x6 x7 x8 x9 x10 x11 x12 x13 x14 x15 x16) x2 x17 := rfl

/-- The reference run's result term is the tail of the two specification arrays of its arguments. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v64 m' c = tail (valueProj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)))
      (scores (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg17)) := by
  rw [Cert.ReferenceIdeal.Read.val_main_v64_eq, ref_tail, Cert.ReferenceIdeal.RefValue.ref_valueProj, Cert.ReferenceIdeal.RefValue.ref_scores]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the tail of the same two arrays. -/
theorem algebraic : Cert.algebraic_KernelIdeal_ReferenceIdeal := by
  intro m ρ m' ρ' _ hagree
  refine ⟨fun c => tail (valueProj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (scores (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
        (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg17)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [ref_result, h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
